-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S1 : Shape := ⟨1, ![1]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4x8192x3 .f32) (main_arg1 : FVec F S4x8192x3 .f32) (main_arg2 : FVec F S1 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x8192x3 : Shape := ⟨3, ![4, 8192, 3]⟩
abbrev S1 : Shape := ⟨1, ![1]⟩
abbrev S4x8192x1 : Shape := ⟨3, ![4, 8192, 1]⟩
abbrev S1x1024x3 : Shape := ⟨3, ![1, 1024, 3]⟩
abbrev S1x1024x1 : Shape := ⟨3, ![1, 1024, 1]⟩
abbrev S1024x1 : Shape := ⟨2, ![1024, 1]⟩
abbrev S1024x3 : Shape := ⟨2, ![1024, 3]⟩
abbrev S1024x1024 : Shape := ⟨2, ![1024, 1024]⟩
abbrev S1024 : Shape := ⟨1, ![1024]⟩
abbrev S1x3 : Shape := ⟨2, ![1, 3]⟩
abbrev S1x1024 : Shape := ⟨2, ![1, 1024]⟩
abbrev S4x8192 : Shape := ⟨2, ![4, 8192]⟩
abbrev S_ : Shape := ⟨0, ![]⟩
abbrev S4 : Shape := ⟨1, ![4]⟩

abbrev nBuf : Space → Nat
  | .hbm => 33
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S1, .f32⟩
  | .hbm, ⟨3, _⟩ => ⟨S4x8192x1, .f32⟩
  | .hbm, ⟨4, _⟩ => ⟨S4x8192, .f32⟩
  | .hbm, ⟨5, _⟩ => ⟨S4x8192x1, .f32⟩
  | .hbm, ⟨6, _⟩ => ⟨S4x8192, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x3, .f32⟩
  | .local _ .vmem, ⟨11, _⟩ => ⟨S1x1024x1, .f32⟩
  | .local _ .vmem, ⟨12, _⟩ => ⟨S1x1024x1, .f32⟩
  | .local _ .vmem, ⟨13, _⟩ => ⟨S1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_cst_9 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_15 : BitVec 32 := 0#32
  let v29 : BitVec 1 := Scalar.cmpi .ne v28 c0_i32_15
  v29

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  reduces_S1024x1024_S1024 : S1024x1024.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S4x8192x1_S4x8192 : S4x8192x1.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  reducesTo_S1_S_d0 : S1.ReducesTo [0] S_
  dot_S1024x3_S1024x3_S1024x1024_1_1_0_0_n_n_wf : DotDims.WF S1024x3 S1024x3 S1024x1024 [1] [1] [0] [0] [] []
  dot_S1x3_S1024x3_S1x1024_1_1_0_0_n_n_wf : DotDims.WF S1x3 S1024x3 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S4x8192x3.size a
  hwx1_0 : ∀ i : grid1.Coords, EltTy.bits .f32 = 32 ∨ (Rect.block (s := S4x8192x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x8192x1.size a
  hwx1_2 : ∀ i : grid1.Coords, EltTy.bits .f32 = 32 ∨ (Rect.block (s := S4x8192x1) S1x1024x1.size (cc1_transform_2 i) (hinb1_2 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf
def dot_S1x3_S1024x3_S1x1024_1_1_0_0_n_n : DotDims S1x3 S1024x3 S1x1024 where
  lhsContracting := [1]
  rhsContracting := [1]
  lhsNonContracting := [0]
  rhsNonContracting := [0]
  lhsBatch := []
  rhsBatch := []
  wf := dot_S1x3_S1024x3_S1x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S1 : Shape := ⟨1, ![1]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S1, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_cst_9 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_cst_11 : Ref sig .tc := ⟨.hbm, 39, rfl⟩
abbrev main_v24 : Ref sig .tc := ⟨.hbm, 40, rfl⟩
abbrev main_v25 : Ref sig .tc := ⟨.hbm, 41, rfl⟩
abbrev main_cst_12 : Ref sig .tc := ⟨.hbm, 42, rfl⟩
abbrev main_v26 : Ref sig .tc := ⟨.hbm, 43, rfl⟩
abbrev main_cst_13 : Ref sig .tc := ⟨.hbm, 44, rfl⟩
abbrev main_v27 : Ref sig .tc := ⟨.hbm, 45, rfl⟩
abbrev main_cst_14 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  reducesTo_S1_S_d0 : S1.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KB.Base0.lean ====
/-
  Call 0 of the program (the nearest-point kernel on its 4 x 8 x 8 grid): where its two branches are taken,
  where its output window is idle, the staging and scratch buffers it is called on, and the body run once per
  branch assignment. The grid's last coordinate k counts the key blocks of one query block: the first branch
  (reset the running minimum to +infinity) is taken exactly when k = 0, the second (copy the running minimum to
  the output block) exactly when k = 7.
-/
import proofs.«108210_j36782099923388_2_alg».proof.Proof.Gen.Kernel.Launch
import proofs.«108210_j36782099923388_2_alg».proof.Proof.Gen.Kernel.Skeleton
import proofs.«108210_j36782099923388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch: taken when the grid's last coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The write-out branch: taken when the grid's last coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the write-out branch is not taken the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body is called on -/

abbrev VO0_2 : View sig .tc .vmem S1x1024x1 .f32 := (Memref.whole cc0_stg2_0 : Memref sig .tc .vmem S1x1024x1 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
/-- The running minimum's buffer. -/
abbrev scM0 : Memref sig .tc .vmem S1024x1 .f32 := Memref.whole cc0_scratch0
abbrev VS0 : View sig .tc .vmem S1024x1 .f32 := scM0.view

/-- The scoped buffers of the other call, each whole at some contents: they ride through this call untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant the launch hands the call: the running minimum's buffer at some contents, the other call's scoped
    buffers, the generator register at some state. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; rfl

end Cert.Kernel.Hand

end
-- ==== Proof.KB.Run0A.lean ====
/-
  The body of call 0 run on whole staging buffers in the case of the first key block (k = 0): the running minimum is reset, then lowered by this block's distances; nothing is written to the output block.
  The run ends with the two input blocks as they were and each buffer the body stored into at its stores, listed as pieces.
-/
import proofs.«108210_j36782099923388_2_alg».proof.Proof.KB.Base0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ (∃ d, owns (c : Thread nD τ) arg6 fullShare d)
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc0__min_dist_kernel i arg3 harg3 arg4 harg4 arg5 harg5 arg6 harg6) K } := by
  refine ⟨[], ?_, fun d2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.Kernel.Hand

end
-- ==== Proof.KB.Run0B.lean ====
/-
  The body of call 0 run on whole staging buffers in the case of a middle key block (0 < k < 7): the running minimum the point before left is lowered by this block's distances.
  The run ends with the two input blocks as they were and each buffer the body stored into at its stores, listed as pieces.
-/
import proofs.«108210_j36782099923388_2_alg».proof.Proof.KB.Base0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ owns (c : Thread nD τ) arg6 fullShare xs0
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc0__min_dist_kernel i arg3 harg3 arg4 harg4 arg5 harg5 arg6 harg6) K } := by
  refine ⟨[], ?_, fun d2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.Kernel.Hand

end
-- ==== Proof.KB.Run0C.lean ====
/-
  The body of call 0 run on whole staging buffers in the case of the last key block (k = 7): the running minimum is lowered by this block's distances and copied to the output block.
  The run ends with the two input blocks as they were and each buffer the body stored into at its stores, listed as pieces.
-/
import proofs.«108210_j36782099923388_2_alg».proof.Proof.KB.Base0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.Reg0.lean ====
/-
  Call 0 over the grid: each window's block at a grid point as read off the arrays the call is entered with,
  what the body leaves after every point — the running minimum's buffer carried from point to point, the output
  block written where the last key block has been seen —, the proof data of the pipeline, and the body's
  obligation at every point.
-/
import proofs.«108210_j36782099923388_2_alg».proof.Proof.KB.Run0A
import proofs.«108210_j36782099923388_2_alg».proof.Proof.KB.Run0B
import proofs.«108210_j36782099923388_2_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The key window's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The stores of this case cover the running minimum's buffer (one whole store). -/
theorem scover0_A_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) (y : S1024x1.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1.size (by sl_kernel_rfl) y

/-- What this case leaves in the running minimum's buffer: its stores read back. -/
def sout0_A_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) : Vec F S1024x1 .f32 :=
  VS0.read (Elt F) (VS0.writes (Elt F) VS0.junk (kernelRun0_A c i arg3 harg3 arg4 harg4 arg5 harg5 arg6 harg6 hc0 hc1 x0 x1).2.1)

/-- What this case leaves in the output block's buffer: its stores read back (none: a placeholder nothing consults, the window being idle and not written back here). -/
def out0_A_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) : Vec F S1x1024x1 .f32 :=
  VO0_2.read (Elt F) (VO0_2.writes (Elt F) VO0_2.junk (kernelRun0_A c i arg3 harg3 arg4 harg4 arg5 harg5 arg6 harg6 hc0 hc1 x0 x1).1)

/-- The stores of this case cover the running minimum's buffer (one whole store). -/
theorem scover0_B_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) (y : S1024x1.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1.size (by sl_kernel_rfl) y

/-- What this case leaves in the running minimum's buffer: its stores read back. -/
def sout0_B_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) : Vec F S1024x1 .f32 :=
  VS0.read (Elt F) (VS0.writes (Elt F) VS0.junk (kernelRun0_B c i arg3 harg3 arg4 harg4 arg5 harg5 arg6 harg6 hc0 hc1 x0 x1 xs0).2.1)

/-- What this case leaves in the output block's buffer: its stores read back (none: a placeholder nothing consults, the window being idle and not written back here). -/
def out0_B_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) : Vec F S1x1024x1 .f32 :=
  VO0_2.read (Elt F) (VO0_2.writes (Elt F) VO0_2.junk (kernelRun0_B c i arg3 harg3 arg4 harg4 arg5 harg5 arg6 harg6 hc0 hc1 x0 x1 xs0).1)

/-- The stores of this case cover the running minimum's buffer (one whole store). -/
theorem scover0_C_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) (y : S1024x1.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1.size (by sl_kernel_rfl) y

/-- What this case leaves in the running minimum's buffer: its stores read back. -/
def sout0_C_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) : Vec F S1024x1 .f32 :=
  VS0.read (Elt F) (VS0.writes (Elt F) VS0.junk (kernelRun0_C c i arg3 harg3 arg4 harg4 arg5 harg5 arg6 harg6 hc0 hc1 x0 x1 xs0).2.1)

/-- What this case leaves in the output block's buffer: its stores read back. -/
def out0_C_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) : Vec F S1x1024x1 .f32 :=
  VO0_2.read (Elt F) (VO0_2.writes (Elt F) VO0_2.junk (kernelRun0_C c i arg3 harg3 arg4 harg4 arg5 harg5 arg6 harg6 hc0 hc1 x0 x1 xs0).1)

/-- The stores of this case cover the output block's buffer (one whole store). -/
theorem cover0_C_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) (y : S1x1024x1.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x1024x1.size (by sl_kernel_rfl) y

/-! ## What the buffers hold after each point -/

/-- After the body at position `n`: the output block's buffer and the running minimum's buffer. The case is read off
    the position's residue mod 8 (the key block's number); a case that starts from the running minimum takes what the
    position before left. -/
def outsAt0 (c : Dev nD) : (n : ℕ) → n < cfg0.N → Vec F S1x1024x1 .f32 × Vec F S1024x1 .f32
  | 0, hn => (fun (t : Fin cfg0.N) (h0 : t.val % 8 = 0) => (out0_A_2 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t), sout0_A_0 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t))) ⟨0, hn⟩ (Nat.zero_mod _)
  | n + 1, hn =>
    if h0 : (n + 1) % 8 = 0 then
      (fun (t : Fin cfg0.N) (h0 : t.val % 8 = 0) => (out0_A_2 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t), sout0_A_0 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t))) ⟨n + 1, hn⟩ h0
    else if h7 : (n + 1) % 8 = 7 then
      (fun (t : Fin cfg0.N) (h0 : ¬t.val % 8 = 0) (h7 : t.val % 8 = 7) (prev : Vec F S1024x1 .f32) => (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) prev, sout0_C_0 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) prev)) ⟨n + 1, hn⟩ h0 h7 (outsAt0 c n (Nat.lt_of_succ_lt hn)).2
    else
      (fun (t : Fin cfg0.N) (h0 : ¬t.val % 8 = 0) (h7 : ¬t.val % 8 = 7) (prev : Vec F S1024x1 .f32) => (out0_B_2 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) prev, sout0_B_0 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) prev)) ⟨n + 1, hn⟩ h0 h7 (outsAt0 c n (Nat.lt_of_succ_lt hn)).2

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t), sout0_A_0 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t)) := by
  obtain ⟨n, hn⟩ := t
  cases n with
  | zero => rfl
  | succ n => exact (dif_pos h0).trans rfl

theorem outsAt0_B (c : Dev nD) (t : Fin cfg0.N) (h0 : ¬t.val % 8 = 0) (h7 : ¬t.val % 8 = 7) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬t.val % 8 = 0) (h7 : t.val % 8 = 7) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-- The call's invariant before position `n`: before the first point what the launch hands over; afterwards the running
    minimum's buffer at what the point before left, the other call's scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position's residue mod 8 says which case the point
    is in; the invariant hands the body the running minimum at what the point before left (anything at the first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val % 8 = 0
  ·
    rw [Dat.leavesExact_idle (dat0 V c) 2 t (idleAt0_2 t (fun h => by have := (hcond0_1 t).mp h; omega)) (noFlush0_2 t (fun h => by have := (hcond0_1 t).mp h; omega))]
    rw [outsAt0_A V c t h0]
    unfold sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => by have := (hcond0_1 t).mp h; omega) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => by have := (hcond0_1 t).mp h; omega) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2

  · by_cases h7 : t.val % 8 = 7
    ·
      rw [show (dat0 V c).leavesExact 2 t = owns (c : Thread nD τ) (ms0_2 t) fullShare ((dat0 V c).after 2 t) from by
        unfold Dat.leavesExact; rw [liveAt0_2 t ((hcond0_1 t).mpr h7)], after0_2]
      rw [outsAt0_C V c t h0 h7]
      unfold out0_C_2 sout0_C_0; (try dsimp only)
      have hz : t.val ≠ 0 := by omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h7) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)

    ·
      rw [Dat.leavesExact_idle (dat0 V c) 2 t (idleAt0_2 t (fun h => by have := (hcond0_1 t).mp h; omega)) (noFlush0_2 t (fun h => by have := (hcond0_1 t).mp h; omega))]
      rw [outsAt0_B V c t h0 h7]
      unfold sout0_B_0; (try dsimp only)
      have hz : t.val ≠ 0 := by omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h7 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _)
            iexact Hr
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the running minimum's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Region

end Cert.Kernel.Hand

end
-- ==== Proof.KB.Base1.lean ====
/-
  Call 1 of the program (the nearest-point kernel on its 4 x 8 x 8 grid): where its two branches are taken,
  where its output window is idle, the staging and scratch buffers it is called on, and the body run once per
  branch assignment. The grid's last coordinate k counts the key blocks of one query block: the first branch
  (reset the running minimum to +infinity) is taken exactly when k = 0, the second (copy the running minimum to
  the output block) exactly when k = 7.
-/
import proofs.«108210_j36782099923388_2_alg».proof.Proof.Gen.Kernel.Launch
import proofs.«108210_j36782099923388_2_alg».proof.Proof.Gen.Kernel.Skeleton
import proofs.«108210_j36782099923388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch: taken when the grid's last coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The write-out branch: taken when the grid's last coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the write-out branch is not taken the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called on -/

abbrev VO1_2 : View sig .tc .vmem S1x1024x1 .f32 := (Memref.whole cc1_stg2_0 : Memref sig .tc .vmem S1x1024x1 .f32).view
abbrev ms1_0 (t : Fin cfg1.N) : Memref sig .tc .vmem S1x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
/-- The running minimum's buffer. -/
abbrev scM1 : Memref sig .tc .vmem S1024x1 .f32 := Memref.whole cc1_scratch0
abbrev VS1 : View sig .tc .vmem S1024x1 .f32 := scM1.view

/-- The scoped buffers of the other call, each whole at some contents: they ride through this call untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The invariant the launch hands the call: the running minimum's buffer at some contents, the other call's scoped
    buffers, the generator register at some state. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA rest1; rw [scopedRest1_eq]; simp only [scM1, owns_whole]
  refine Entails.antisymm (show (_ : sProp 𝕄) ⊢ _ from ?_) (show (_ : sProp 𝕄) ⊢ _ from ?_)
  · iintro ⟨⟨H1, H2, H3, H4, H5, H6, H7, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      iexact H7
    iexact Hg
  · iintro ⟨⟨HS, H1, H2, H3, H4, H5, H6, H7⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact HS
    iexact Hg

end Cert.Kernel.Hand

end
-- ==== Proof.KB.Run1A.lean ====
/-
  The body of call 1 run on whole staging buffers in the case of the first key block (k = 0): the running minimum is reset, then lowered by this block's distances; nothing is written to the output block.
  The run ends with the two input blocks as they were and each buffer the body stored into at its stores, listed as pieces.
-/
import proofs.«108210_j36782099923388_2_alg».proof.Proof.KB.Base1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ (∃ d, owns (c : Thread nD τ) arg6 fullShare d)
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc1__min_dist_kernel i arg3 harg3 arg4 harg4 arg5 harg5 arg6 harg6) K } := by
  refine ⟨[], ?_, fun d2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.Kernel.Hand

end
-- ==== Proof.KB.Run1B.lean ====
/-
  The body of call 1 run on whole staging buffers in the case of a middle key block (0 < k < 7): the running minimum the point before left is lowered by this block's distances.
  The run ends with the two input blocks as they were and each buffer the body stored into at its stores, listed as pieces.
-/
import proofs.«108210_j36782099923388_2_alg».proof.Proof.KB.Base1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ owns (c : Thread nD τ) arg6 fullShare xs0
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc1__min_dist_kernel i arg3 harg3 arg4 harg4 arg5 harg5 arg6 harg6) K } := by
  refine ⟨[], ?_, fun d2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.Kernel.Hand

end
-- ==== Proof.KB.Run1C.lean ====
/-
  The body of call 1 run on whole staging buffers in the case of the last key block (k = 7): the running minimum is lowered by this block's distances and copied to the output block.
  The run ends with the two input blocks as they were and each buffer the body stored into at its stores, listed as pieces.
-/
import proofs.«108210_j36782099923388_2_alg».proof.Proof.KB.Base1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__min_dist_kernel i arg3 harg3 arg4 harg4 arg5 harg5 arg6 harg6) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.Reg1.lean ====
/-
  Call 1 over the grid: each window's block at a grid point as read off the arrays the call is entered with,
  what the body leaves after every point — the running minimum's buffer carried from point to point, the output
  block written where the last key block has been seen —, the proof data of the pipeline, and the body's
  obligation at every point.
-/
import proofs.«108210_j36782099923388_2_alg».proof.Proof.KB.Run1A
import proofs.«108210_j36782099923388_2_alg».proof.Proof.KB.Run1B
import proofs.«108210_j36782099923388_2_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The stores of this case cover the running minimum's buffer (one whole store). -/
theorem scover1_A_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) (y : S1024x1.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1.size (by sl_kernel_rfl) y

/-- What this case leaves in the running minimum's buffer: its stores read back. -/
def sout1_A_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) : Vec F S1024x1 .f32 :=
  VS1.read (Elt F) (VS1.writes (Elt F) VS1.junk (kernelRun1_A c i arg3 harg3 arg4 harg4 arg5 harg5 arg6 harg6 hc0 hc1 x0 x1).2.1)

/-- What this case leaves in the output block's buffer: its stores read back (none: a placeholder nothing consults, the window being idle and not written back here). -/
def out1_A_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) : Vec F S1x1024x1 .f32 :=
  VO1_2.read (Elt F) (VO1_2.writes (Elt F) VO1_2.junk (kernelRun1_A c i arg3 harg3 arg4 harg4 arg5 harg5 arg6 harg6 hc0 hc1 x0 x1).1)

/-- The stores of this case cover the running minimum's buffer (one whole store). -/
theorem scover1_B_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) (y : S1024x1.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1.size (by sl_kernel_rfl) y

/-- What this case leaves in the running minimum's buffer: its stores read back. -/
def sout1_B_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) : Vec F S1024x1 .f32 :=
  VS1.read (Elt F) (VS1.writes (Elt F) VS1.junk (kernelRun1_B c i arg3 harg3 arg4 harg4 arg5 harg5 arg6 harg6 hc0 hc1 x0 x1 xs0).2.1)

/-- What this case leaves in the output block's buffer: its stores read back (none: a placeholder nothing consults, the window being idle and not written back here). -/
def out1_B_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) : Vec F S1x1024x1 .f32 :=
  VO1_2.read (Elt F) (VO1_2.writes (Elt F) VO1_2.junk (kernelRun1_B c i arg3 harg3 arg4 harg4 arg5 harg5 arg6 harg6 hc0 hc1 x0 x1 xs0).1)

/-- The stores of this case cover the running minimum's buffer (one whole store). -/
theorem scover1_C_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) (y : S1024x1.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1.size (by sl_kernel_rfl) y

/-- What this case leaves in the running minimum's buffer: its stores read back. -/
def sout1_C_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) : Vec F S1024x1 .f32 :=
  VS1.read (Elt F) (VS1.writes (Elt F) VS1.junk (kernelRun1_C c i arg3 harg3 arg4 harg4 arg5 harg5 arg6 harg6 hc0 hc1 x0 x1 xs0).2.1)

/-- What this case leaves in the output block's buffer: its stores read back. -/
def out1_C_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) : Vec F S1x1024x1 .f32 :=
  VO1_2.read (Elt F) (VO1_2.writes (Elt F) VO1_2.junk (kernelRun1_C c i arg3 harg3 arg4 harg4 arg5 harg5 arg6 harg6 hc0 hc1 x0 x1 xs0).1)

/-- The stores of this case cover the output block's buffer (one whole store). -/
theorem cover1_C_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) (y : S1x1024x1.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x1024x1.size (by sl_kernel_rfl) y

/-! ## What the buffers hold after each point -/

/-- After the body at position `n`: the output block's buffer and the running minimum's buffer. The case is read off
    the position's residue mod 8 (the key block's number); a case that starts from the running minimum takes what the
    position before left. -/
def outsAt1 (c : Dev nD) : (n : ℕ) → n < cfg1.N → Vec F S1x1024x1 .f32 × Vec F S1024x1 .f32
  | 0, hn => (fun (t : Fin cfg1.N) (h0 : t.val % 8 = 0) => (out1_A_2 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t))) ⟨0, hn⟩ (Nat.zero_mod _)
  | n + 1, hn =>
    if h0 : (n + 1) % 8 = 0 then
      (fun (t : Fin cfg1.N) (h0 : t.val % 8 = 0) => (out1_A_2 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t))) ⟨n + 1, hn⟩ h0
    else if h7 : (n + 1) % 8 = 7 then
      (fun (t : Fin cfg1.N) (h0 : ¬t.val % 8 = 0) (h7 : t.val % 8 = 7) (prev : Vec F S1024x1 .f32) => (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) prev, sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) prev)) ⟨n + 1, hn⟩ h0 h7 (outsAt1 c n (Nat.lt_of_succ_lt hn)).2
    else
      (fun (t : Fin cfg1.N) (h0 : ¬t.val % 8 = 0) (h7 : ¬t.val % 8 = 7) (prev : Vec F S1024x1 .f32) => (out1_B_2 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) prev, sout1_B_0 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) prev)) ⟨n + 1, hn⟩ h0 h7 (outsAt1 c n (Nat.lt_of_succ_lt hn)).2

theorem outsAt1_A (c : Dev nD) (t : Fin cfg1.N) (h0 : t.val % 8 = 0) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t)) := by
  obtain ⟨n, hn⟩ := t
  cases n with
  | zero => rfl
  | succ n => exact (dif_pos h0).trans rfl

theorem outsAt1_B (c : Dev nD) (t : Fin cfg1.N) (h0 : ¬t.val % 8 = 0) (h7 : ¬t.val % 8 = 7) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt1_C (c : Dev nD) (t : Fin cfg1.N) (h0 : ¬t.val % 8 = 0) (h7 : t.val % 8 = 7) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-- The call's invariant before position `n`: before the first point what the launch hands over; afterwards the running
    minimum's buffer at what the point before left, the other call's scoped buffers, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the position's residue mod 8 says which case the point
    is in; the invariant hands the body the running minimum at what the point before left (anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 8 = 0
  ·
    rw [Dat.leavesExact_idle (dat1 V c) 2 t (idleAt1_2 t (fun h => by have := (hcond1_1 t).mp h; omega)) (noFlush1_2 t (fun h => by have := (hcond1_1 t).mp h; omega))]
    rw [outsAt1_A V c t h0]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => by have := (hcond1_1 t).mp h; omega) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _)
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => by have := (hcond1_1 t).mp h; omega) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _)
          iexact Hr
        iexact Hg
      isplitl [Ho]; · iexact Ho
      isplitl [H0]; · iexact H0
      isplitl [H1]; · iexact H1
      iexists _; iexact H2

  · by_cases h7 : t.val % 8 = 7
    ·
      rw [show (dat1 V c).leavesExact 2 t = owns (c : Thread nD τ) (ms1_2 t) fullShare ((dat1 V c).after 2 t) from by
        unfold Dat.leavesExact; rw [liveAt1_2 t ((hcond1_1 t).mpr h7)], after1_2]
      rw [outsAt1_C V c t h0 h7]
      unfold out1_C_2 sout1_C_0; (try dsimp only)
      have hz : t.val ≠ 0 := by omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h7) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)

    ·
      rw [Dat.leavesExact_idle (dat1 V c) 2 t (idleAt1_2 t (fun h => by have := (hcond1_1 t).mp h; omega)) (noFlush1_2 t (fun h => by have := (hcond1_1 t).mp h; omega))]
      rw [outsAt1_B V c t h0 h7]
      unfold sout1_B_0; (try dsimp only)
      have hz : t.val ≠ 0 := by omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h7 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _)
            iexact Hr
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's form back: the running minimum's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hr⟩, Hg⟩
  isplitl [HS0 Hr]
  · isplitl [HS0]
    · iexists _; iexact HS0
    iexact Hr
  iexact Hg

end Region

end Cert.Kernel.Hand

end
-- ==== Proof.KB.Main.lean ====
/-
  The whole program as a run of segments — call 0, the reshape of its output, call 1, the reshape of its output and the
  averaging tail —, with the contents of every unscoped buffer named at each boundary: a call replaces its output
  array by what its write-backs leave, a host stretch applies its operations. Every weakly fair execution terminates
  with each unscoped buffer at the last boundary's contents; in particular the three arguments end as launched.
-/
import proofs.«108210_j36782099923388_2_alg».proof.Proof.KB.Reg0
import proofs.«108210_j36782099923388_2_alg».proof.Proof.KB.Reg1
import proofs.«108210_j36782099923388_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After call 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the reshape of call 0's output. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After call 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the program's end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- Call 0 as a segment of the program: entered with every unscoped buffer at the contents before it, left with the
    output array at what the write-backs leave and every other buffer as entered. The generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with the
    output array at what the write-backs leave and every other buffer as entered. The generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W4_of (c : Dev nD) (r : Ref sig .tc) (h : r ∉ hostOps2_W) : W4 m c (Proc.devRef .tc r) = W3 m c (Proc.devRef .tc r) :=
  StableHlo.after_of_writes_sub hostOps2 _ hostOps2_writes h

/-- The first cloud's array is an input window of both calls and no host operation writes it. -/
theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  (W2_of m c main_arg0 (by decide)).trans (W1_main_arg0 m c)
theorem W2_main_arg1 (c : Dev nD) : W2 m c (Proc.devRef .tc main_arg1) = m ((c : Thread nD τ).loc main_arg1) :=
  (W2_of m c main_arg1 (by decide)).trans (W1_main_arg1 m c)
theorem W3_main_arg1 (c : Dev nD) : W3 m c (Proc.devRef .tc main_arg1) = m ((c : Thread nD τ).loc main_arg1) :=
  (W3_arr m c 0).trans (((dat1 (V2 m) c).arrAt_in 0 rfl _).trans ((A_eq1 (V2 m) c 0).trans (W2_main_arg1 m c)))
theorem W3_main_arg0 (c : Dev nD) : W3 m c (Proc.devRef .tc main_arg0) = m ((c : Thread nD τ).loc main_arg0) :=
  (W3_arr m c 1).trans (((dat1 (V2 m) c).arrAt_in 1 rfl _).trans ((A_eq1 (V2 m) c 1).trans (W2_main_arg0 m c)))
theorem W3_main_arg2 (c : Dev nD) : W3 m c (Proc.devRef .tc main_arg2) = m ((c : Thread nD τ).loc main_arg2) :=
  (W3_of_ne m c main_arg2 (by decide)).trans ((W2_of m c main_arg2 (by decide)).trans (W1_of_ne m c main_arg2 (by decide)))
theorem W4_main_arg0 (c : Dev nD) : W4 m c (Proc.devRef .tc main_arg0) = m ((c : Thread nD τ).loc main_arg0) :=
  (W4_of m c main_arg0 (by decide)).trans (W3_main_arg0 m c)
theorem W4_main_arg1 (c : Dev nD) : W4 m c (Proc.devRef .tc main_arg1) = m ((c : Thread nD τ).loc main_arg1) :=
  (W4_of m c main_arg1 (by decide)).trans (W3_main_arg1 m c)
theorem W4_main_arg2 (c : Dev nD) : W4 m c (Proc.devRef .tc main_arg2) = m ((c : Thread nD τ).loc main_arg2) :=
  (W4_of m c main_arg2 (by decide)).trans (W3_main_arg2 m c)

/-- The frame: every weakly fair execution terminates, nothing faulting, with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c)⟩) (run_all m ρ)

end Cert.Kernel.Hand

end
-- ==== Proof.KI.Base0.lean ====
/-
  Call 0 of the program (the nearest-point kernel on its 4 x 8 x 8 grid): where its two branches are taken,
  where its output window is idle, the staging and scratch buffers it is called on, and the body run once per
  branch assignment. The grid's last coordinate k counts the key blocks of one query block: the first branch
  (reset the running minimum to +infinity) is taken exactly when k = 0, the second (copy the running minimum to
  the output block) exactly when k = 7.
-/
import proofs.«108210_j36782099923388_2_alg».proof.Proof.Gen.KernelIdeal.Launch
import proofs.«108210_j36782099923388_2_alg».proof.Proof.Gen.KernelIdeal.Skeleton
import proofs.«108210_j36782099923388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch: taken when the grid's last coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The write-out branch: taken when the grid's last coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the write-out branch is not taken the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body is called on -/

abbrev VO0_2 : View sig .tc .vmem S1x1024x1 .f32 := (Memref.whole cc0_stg2_0 : Memref sig .tc .vmem S1x1024x1 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
/-- The running minimum's buffer. -/
abbrev scM0 : Memref sig .tc .vmem S1024x1 .f32 := Memref.whole cc0_scratch0
abbrev VS0 : View sig .tc .vmem S1024x1 .f32 := scM0.view

/-- The scoped buffers of the other call, each whole at some contents: they ride through this call untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant the launch hands the call: the running minimum's buffer at some contents, the other call's scoped
    buffers, the generator register at some state. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; rfl

end Cert.KernelIdeal.Hand

end
-- ==== Proof.KI.Run0A.lean ====
/-
  The body of call 0 run on whole staging buffers in the case of the first key block (k = 0): the running minimum is reset, then lowered by this block's distances; nothing is written to the output block.
  The run ends with the two input blocks as they were and each buffer the body stored into at its stores, listed as pieces.
-/
import proofs.«108210_j36782099923388_2_alg».proof.Proof.KI.Base0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ (∃ d, owns (c : Thread nD τ) arg6 fullShare d)
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc0__min_dist_kernel i arg3 harg3 arg4 harg4 arg5 harg5 arg6 harg6) K } := by
  refine ⟨[], ?_, fun d2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.KernelIdeal.Hand

end
-- ==== Proof.KI.Run0B.lean ====
/-
  The body of call 0 run on whole staging buffers in the case of a middle key block (0 < k < 7): the running minimum the point before left is lowered by this block's distances.
  The run ends with the two input blocks as they were and each buffer the body stored into at its stores, listed as pieces.
-/
import proofs.«108210_j36782099923388_2_alg».proof.Proof.KI.Base0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ owns (c : Thread nD τ) arg6 fullShare xs0
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc0__min_dist_kernel i arg3 harg3 arg4 harg4 arg5 harg5 arg6 harg6) K } := by
  refine ⟨[], ?_, fun d2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.KernelIdeal.Hand

end
-- ==== Proof.KI.Run0C.lean ====
/-
  The body of call 0 run on whole staging buffers in the case of the last key block (k = 7): the running minimum is lowered by this block's distances and copied to the output block.
  The run ends with the two input blocks as they were and each buffer the body stored into at its stores, listed as pieces.
-/
import proofs.«108210_j36782099923388_2_alg».proof.Proof.KI.Base0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Reg0.lean ====
/-
  Call 0 over the grid: each window's block at a grid point as read off the arrays the call is entered with,
  what the body leaves after every point — the running minimum's buffer carried from point to point, the output
  block written where the last key block has been seen —, the proof data of the pipeline, and the body's
  obligation at every point.
-/
import proofs.«108210_j36782099923388_2_alg».proof.Proof.KI.Run0A
import proofs.«108210_j36782099923388_2_alg».proof.Proof.KI.Run0B
import proofs.«108210_j36782099923388_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The key window's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The stores of this case cover the running minimum's buffer (one whole store). -/
theorem scover0_A_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) (y : S1024x1.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1.size (by sl_kernel_rfl) y

/-- What this case leaves in the running minimum's buffer: its stores read back. -/
def sout0_A_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) : Vec F S1024x1 .f32 :=
  VS0.read (Elt F) (VS0.writes (Elt F) VS0.junk (kernelRun0_A c i arg3 harg3 arg4 harg4 arg5 harg5 arg6 harg6 hc0 hc1 x0 x1).2.1)

/-- What this case leaves in the output block's buffer: its stores read back (none: a placeholder nothing consults, the window being idle and not written back here). -/
def out0_A_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) : Vec F S1x1024x1 .f32 :=
  VO0_2.read (Elt F) (VO0_2.writes (Elt F) VO0_2.junk (kernelRun0_A c i arg3 harg3 arg4 harg4 arg5 harg5 arg6 harg6 hc0 hc1 x0 x1).1)

/-- The stores of this case cover the running minimum's buffer (one whole store). -/
theorem scover0_B_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) (y : S1024x1.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1.size (by sl_kernel_rfl) y

/-- What this case leaves in the running minimum's buffer: its stores read back. -/
def sout0_B_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) : Vec F S1024x1 .f32 :=
  VS0.read (Elt F) (VS0.writes (Elt F) VS0.junk (kernelRun0_B c i arg3 harg3 arg4 harg4 arg5 harg5 arg6 harg6 hc0 hc1 x0 x1 xs0).2.1)

/-- What this case leaves in the output block's buffer: its stores read back (none: a placeholder nothing consults, the window being idle and not written back here). -/
def out0_B_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) : Vec F S1x1024x1 .f32 :=
  VO0_2.read (Elt F) (VO0_2.writes (Elt F) VO0_2.junk (kernelRun0_B c i arg3 harg3 arg4 harg4 arg5 harg5 arg6 harg6 hc0 hc1 x0 x1 xs0).1)

/-- The stores of this case cover the running minimum's buffer (one whole store). -/
theorem scover0_C_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) (y : S1024x1.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1.size (by sl_kernel_rfl) y

/-- What this case leaves in the running minimum's buffer: its stores read back. -/
def sout0_C_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) : Vec F S1024x1 .f32 :=
  VS0.read (Elt F) (VS0.writes (Elt F) VS0.junk (kernelRun0_C c i arg3 harg3 arg4 harg4 arg5 harg5 arg6 harg6 hc0 hc1 x0 x1 xs0).2.1)

/-- What this case leaves in the output block's buffer: its stores read back. -/
def out0_C_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) : Vec F S1x1024x1 .f32 :=
  VO0_2.read (Elt F) (VO0_2.writes (Elt F) VO0_2.junk (kernelRun0_C c i arg3 harg3 arg4 harg4 arg5 harg5 arg6 harg6 hc0 hc1 x0 x1 xs0).1)

/-- The stores of this case cover the output block's buffer (one whole store). -/
theorem cover0_C_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) (y : S1x1024x1.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x1024x1.size (by sl_kernel_rfl) y

/-! ## What the buffers hold after each point -/

/-- After the body at position `n`: the output block's buffer and the running minimum's buffer. The case is read off
    the position's residue mod 8 (the key block's number); a case that starts from the running minimum takes what the
    position before left. -/
def outsAt0 (c : Dev nD) : (n : ℕ) → n < cfg0.N → Vec F S1x1024x1 .f32 × Vec F S1024x1 .f32
  | 0, hn => (fun (t : Fin cfg0.N) (h0 : t.val % 8 = 0) => (out0_A_2 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t), sout0_A_0 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t))) ⟨0, hn⟩ (Nat.zero_mod _)
  | n + 1, hn =>
    if h0 : (n + 1) % 8 = 0 then
      (fun (t : Fin cfg0.N) (h0 : t.val % 8 = 0) => (out0_A_2 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t), sout0_A_0 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t))) ⟨n + 1, hn⟩ h0
    else if h7 : (n + 1) % 8 = 7 then
      (fun (t : Fin cfg0.N) (h0 : ¬t.val % 8 = 0) (h7 : t.val % 8 = 7) (prev : Vec F S1024x1 .f32) => (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) prev, sout0_C_0 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) prev)) ⟨n + 1, hn⟩ h0 h7 (outsAt0 c n (Nat.lt_of_succ_lt hn)).2
    else
      (fun (t : Fin cfg0.N) (h0 : ¬t.val % 8 = 0) (h7 : ¬t.val % 8 = 7) (prev : Vec F S1024x1 .f32) => (out0_B_2 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) prev, sout0_B_0 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) prev)) ⟨n + 1, hn⟩ h0 h7 (outsAt0 c n (Nat.lt_of_succ_lt hn)).2

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t), sout0_A_0 c (grid0.coords t) (ms0_0 t) (hs0_0 t) (ms0_1 t) (hs0_1 t) (ms0_2 t) (hs0_2 t) scM0 (Memref.isWhole_whole _) ((hcond0_0 t).mpr h0) (fun h => by have := (hcond0_1 t).mp h; omega) (iblk0 V c 0 t) (iblk0 V c 1 t)) := by
  obtain ⟨n, hn⟩ := t
  cases n with
  | zero => rfl
  | succ n => exact (dif_pos h0).trans rfl

theorem outsAt0_B (c : Dev nD) (t : Fin cfg0.N) (h0 : ¬t.val % 8 = 0) (h7 : ¬t.val % 8 = 7) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬t.val % 8 = 0) (h7 : t.val % 8 = 7) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-- The call's invariant before position `n`: before the first point what the launch hands over; afterwards the running
    minimum's buffer at what the point before left, the other call's scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position's residue mod 8 says which case the point
    is in; the invariant hands the body the running minimum at what the point before left (anything at the first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val % 8 = 0
  ·
    rw [Dat.leavesExact_idle (dat0 V c) 2 t (idleAt0_2 t (fun h => by have := (hcond0_1 t).mp h; omega)) (noFlush0_2 t (fun h => by have := (hcond0_1 t).mp h; omega))]
    rw [outsAt0_A V c t h0]
    unfold sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => by have := (hcond0_1 t).mp h; omega) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => by have := (hcond0_1 t).mp h; omega) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2

  · by_cases h7 : t.val % 8 = 7
    ·
      rw [show (dat0 V c).leavesExact 2 t = owns (c : Thread nD τ) (ms0_2 t) fullShare ((dat0 V c).after 2 t) from by
        unfold Dat.leavesExact; rw [liveAt0_2 t ((hcond0_1 t).mpr h7)], after0_2]
      rw [outsAt0_C V c t h0 h7]
      unfold out0_C_2 sout0_C_0; (try dsimp only)
      have hz : t.val ≠ 0 := by omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h7) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)

    ·
      rw [Dat.leavesExact_idle (dat0 V c) 2 t (idleAt0_2 t (fun h => by have := (hcond0_1 t).mp h; omega)) (noFlush0_2 t (fun h => by have := (hcond0_1 t).mp h; omega))]
      rw [outsAt0_B V c t h0 h7]
      unfold sout0_B_0; (try dsimp only)
      have hz : t.val ≠ 0 := by omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h7 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _)
            iexact Hr
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the running minimum's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Region

end Cert.KernelIdeal.Hand

end
-- ==== Proof.TileA.lean ====
/-
  The two matrix products of the distance tile, read at an entry, and the values of the float words +∞ and 1.

  Both products contract the coordinate axis of two arrays of points: a block of 1024 points against the transpose of
  another (entry (p, k): the inner product of point p with point k), and a single row against the transpose of a
  block (entry (0, k): the inner product of that row with point k). Accumulated into zero, each entry is the sum over
  the three coordinates of the operands' products.
-/
import proofs.«108210_j36782099923388_2_alg».proof.Proof.Gen.KernelIdeal.Skeleton
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- The float word 0x7F800000 denotes +∞. -/
theorem ofBits_inf : Ideal.ofBits .f32 0x7F800000#32 = ⊤ := by simp [Ideal.ofBits, Ideal.ieee]

/-- The float word 0x3F800000 denotes 1. -/
theorem ofBits_one : Ideal.ofBits .f32 0x3F800000#32 = 1 := by
  simp [Ideal.ofBits, Ideal.ieee, -EReal.coe_mul]; norm_num

/-! ## The two products' operand indices -/

theorem rowsDot_lhs_0 (j : S1024x1024.Idx) (q : dot_S1024x3_S1024x3_S1024x1024_1_1_0_0_n_n.contr.Idx) :
    (dot_S1024x3_S1024x3_S1024x1024_1_1_0_0_n_n.lhsIdx j q 0).val = (j 0).val := by
  unfold DotDims.lhsIdx
  rw [dif_neg (show ¬(0 : Fin S1024x3.rank) ∈ dot_S1024x3_S1024x3_S1024x1024_1_1_0_0_n_n.lhsBatch by decide),
    dif_pos (show (0 : Fin S1024x3.rank) ∈ dot_S1024x3_S1024x3_S1024x1024_1_1_0_0_n_n.lhsNonContracting by decide)]
  rfl

theorem rowsDot_lhs_1 (j : S1024x1024.Idx) (q : dot_S1024x3_S1024x3_S1024x1024_1_1_0_0_n_n.contr.Idx) :
    (dot_S1024x3_S1024x3_S1024x1024_1_1_0_0_n_n.lhsIdx j q 1).val = (q ⟨0, by decide⟩).val :=
  dot_S1024x3_S1024x3_S1024x1024_1_1_0_0_n_n.lhsIdx_val_of_single rfl j q

theorem rowsDot_rhs_0 (j : S1024x1024.Idx) (q : dot_S1024x3_S1024x3_S1024x1024_1_1_0_0_n_n.contr.Idx) :
    (dot_S1024x3_S1024x3_S1024x1024_1_1_0_0_n_n.rhsIdx j q 0).val = (j 1).val := by
  unfold DotDims.rhsIdx
  rw [dif_neg (show ¬(0 : Fin S1024x3.rank) ∈ dot_S1024x3_S1024x3_S1024x1024_1_1_0_0_n_n.rhsBatch by decide),
    dif_pos (show (0 : Fin S1024x3.rank) ∈ dot_S1024x3_S1024x3_S1024x1024_1_1_0_0_n_n.rhsNonContracting by decide)]
  rfl

theorem rowsDot_rhs_1 (j : S1024x1024.Idx) (q : dot_S1024x3_S1024x3_S1024x1024_1_1_0_0_n_n.contr.Idx) :
    (dot_S1024x3_S1024x3_S1024x1024_1_1_0_0_n_n.rhsIdx j q 1).val = (q ⟨0, by decide⟩).val :=
  dot_S1024x3_S1024x3_S1024x1024_1_1_0_0_n_n.rhsIdx_val_of_single rfl j q

theorem rowDot_lhs_0 (j : S1x1024.Idx) (q : dot_S1x3_S1024x3_S1x1024_1_1_0_0_n_n.contr.Idx) :
    (dot_S1x3_S1024x3_S1x1024_1_1_0_0_n_n.lhsIdx j q 0).val = (j 0).val := by
  unfold DotDims.lhsIdx
  rw [dif_neg (show ¬(0 : Fin S1x3.rank) ∈ dot_S1x3_S1024x3_S1x1024_1_1_0_0_n_n.lhsBatch by decide),
    dif_pos (show (0 : Fin S1x3.rank) ∈ dot_S1x3_S1024x3_S1x1024_1_1_0_0_n_n.lhsNonContracting by decide)]
  rfl

theorem rowDot_lhs_1 (j : S1x1024.Idx) (q : dot_S1x3_S1024x3_S1x1024_1_1_0_0_n_n.contr.Idx) :
    (dot_S1x3_S1024x3_S1x1024_1_1_0_0_n_n.lhsIdx j q 1).val = (q ⟨0, by decide⟩).val :=
  dot_S1x3_S1024x3_S1x1024_1_1_0_0_n_n.lhsIdx_val_of_single rfl j q

theorem rowDot_rhs_0 (j : S1x1024.Idx) (q : dot_S1x3_S1024x3_S1x1024_1_1_0_0_n_n.contr.Idx) :
    (dot_S1x3_S1024x3_S1x1024_1_1_0_0_n_n.rhsIdx j q 0).val = (j 1).val := by
  unfold DotDims.rhsIdx
  rw [dif_neg (show ¬(0 : Fin S1024x3.rank) ∈ dot_S1x3_S1024x3_S1x1024_1_1_0_0_n_n.rhsBatch by decide),
    dif_pos (show (0 : Fin S1024x3.rank) ∈ dot_S1x3_S1024x3_S1x1024_1_1_0_0_n_n.rhsNonContracting by decide)]
  rfl

theorem rowDot_rhs_1 (j : S1x1024.Idx) (q : dot_S1x3_S1024x3_S1x1024_1_1_0_0_n_n.contr.Idx) :
    (dot_S1x3_S1024x3_S1x1024_1_1_0_0_n_n.rhsIdx j q 1).val = (q ⟨0, by decide⟩).val :=
  dot_S1x3_S1024x3_S1x1024_1_1_0_0_n_n.rhsIdx_val_of_single rfl j q

/-! ## The two products at an entry -/

/-- The product of a block of points with the transpose of another, accumulated into zero: entry (p, k) is the
    inner product of row p of the first with row k of the second. -/
theorem rowsDot_apply (x y : FVec Ideal S1024x3 .f32) (p k : Fin 1024) :
    matmul dot_S1024x3_S1024x3_S1024x1024_1_1_0_0_n_n (some .fp32) x y (constant S1024x1024 .f32 0x00000000#32) (ix2 p k)
      = ∑ d : Fin 3, x (ix2 p d) * y (ix2 k d) := by
  simp only [matmul]
  rw [Ideal.matmul_constant_zero_apply,
    ← Equiv.sum_comp (contrEquiv1 dot_S1024x3_S1024x3_S1024x1024_1_1_0_0_n_n 3 rfl rfl).symm]
  refine Finset.sum_congr rfl fun d _ => ?_
  have hd := contrEquiv1_symm_val dot_S1024x3_S1024x3_S1024x1024_1_1_0_0_n_n 3 rfl rfl d
  have el : dot_S1024x3_S1024x3_S1024x1024_1_1_0_0_n_n.lhsIdx (ix2 p k)
      ((contrEquiv1 dot_S1024x3_S1024x3_S1024x1024_1_1_0_0_n_n 3 rfl rfl).symm d) = ix2 p d :=
    funext fun a => Fin.ext (by
      match a with
      | ⟨0, _⟩ => exact rowsDot_lhs_0 _ _
      | ⟨1, _⟩ => exact (rowsDot_lhs_1 _ _).trans hd)
  have er : dot_S1024x3_S1024x3_S1024x1024_1_1_0_0_n_n.rhsIdx (ix2 p k)
      ((contrEquiv1 dot_S1024x3_S1024x3_S1024x1024_1_1_0_0_n_n 3 rfl rfl).symm d) = ix2 k d :=
    funext fun a => Fin.ext (by
      match a with
      | ⟨0, _⟩ => exact rowsDot_rhs_0 _ _
      | ⟨1, _⟩ => exact (rowsDot_rhs_1 _ _).trans hd)
  rw [el, er]

/-- A single row times the transpose of a block of points, accumulated into zero: entry (u, k) is the inner product
    of that row with row k of the block. -/
theorem rowDot_apply (x : FVec Ideal S1x3 .f32) (y : FVec Ideal S1024x3 .f32) (u : Fin 1) (k : Fin 1024) :
    matmul dot_S1x3_S1024x3_S1x1024_1_1_0_0_n_n (some .fp32) x y (constant S1x1024 .f32 0x00000000#32) (ix2 u k)
      = ∑ d : Fin 3, x (ix2 u d) * y (ix2 k d) := by
  simp only [matmul]
  rw [Ideal.matmul_constant_zero_apply,
    ← Equiv.sum_comp (contrEquiv1 dot_S1x3_S1024x3_S1x1024_1_1_0_0_n_n 3 rfl rfl).symm]
  refine Finset.sum_congr rfl fun d _ => ?_
  have hd := contrEquiv1_symm_val dot_S1x3_S1024x3_S1x1024_1_1_0_0_n_n 3 rfl rfl d
  have el : dot_S1x3_S1024x3_S1x1024_1_1_0_0_n_n.lhsIdx (ix2 u k)
      ((contrEquiv1 dot_S1x3_S1024x3_S1x1024_1_1_0_0_n_n 3 rfl rfl).symm d) = ix2 u d :=
    funext fun a => Fin.ext (by
      match a with
      | ⟨0, _⟩ => exact rowDot_lhs_0 _ _
      | ⟨1, _⟩ => exact (rowDot_lhs_1 _ _).trans hd)
  have er : dot_S1x3_S1024x3_S1x1024_1_1_0_0_n_n.rhsIdx (ix2 u k)
      ((contrEquiv1 dot_S1x3_S1024x3_S1x1024_1_1_0_0_n_n 3 rfl rfl).symm d) = ix2 k d :=
    funext fun a => Fin.ext (by
      match a with
      | ⟨0, _⟩ => exact rowDot_rhs_0 _ _
      | ⟨1, _⟩ => exact (rowDot_rhs_1 _ _).trans hd)
  rw [el, er]

end Cert.KernelIdeal.Tile

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMin.lean ====
/-
  Minimum reductions of an array of extended reals, read at an index.

  A `multi_reduction <minimumf>` over one axis is, at each kept index, the minimum — taken from the accumulator's
  value — over that axis's coordinates of the source. For a two-axis array this gives the column minima (reducing the
  rows away) and the row minima (reducing the columns away). A minimum is best carried by what lies below it: a value
  is below the minimum exactly when it is below the start value and below every entry.
-/
import proofs.«108210_j36782099923388_2_alg».proof.Proof.LibLayout
import Idealize.ShloMosaic.Lib.ValueLayout
import Idealize.ShloMosaic.PureOps.Ideal.Laws

namespace Cert.Nearest.MinRead

open Idealize.ShloMosaic Idealize.ShloMosaic.ValueIdx

/-- At the ideal values a `multi_reduction <minimumf>` over ONE axis is the minimum, from the accumulator's value, over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The index a reduction along the columns inserts: column `q` with row `k` put back is `(k, q)`. -/
theorem lift_col {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- COLUMN minima of an `[a, b]` array (the rows reduced away): what lies below the minimum of column `q`. -/
theorem le_colMin {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.minimumf.neutral .f32 hφ) (q : Fin b) (z : EReal) :
    z ≤ multiReduction .minimumf [0] (⟨1, ![b]⟩ : Shape) src acc h hφ hacc (ix1 q)
      ↔ z ≤ Ideal.ofBits .f32 acc ∧ ∀ k : Fin a, z ≤ src (ix2 k q) := by
  rw [multiReduction_minimumf_single, Finset.le_fold_min]
  refine and_congr Iff.rfl ⟨fun hz k => ?_, fun hz k _ => ?_⟩
  · exact (hz k (Finset.mem_univ _)).trans_eq (congrArg src (lift_col h q k))
  · exact (hz _).trans_eq (congrArg src (lift_col h q k)).symm

/-- ROW minima of an `[a, b]` array (the columns reduced away): what lies below the minimum of row `p`. -/
theorem le_rowMin {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.minimumf.neutral .f32 hφ) (p : Fin a) (z : EReal) :
    z ≤ multiReduction .minimumf [1] (⟨1, ![a]⟩ : Shape) src acc h hφ hacc (ix1 p)
      ↔ z ≤ Ideal.ofBits .f32 acc ∧ ∀ k : Fin b, z ≤ src (ix2 p k) := by
  rw [multiReduction_minimumf_single, Finset.le_fold_min]
  refine and_congr Iff.rfl ⟨fun hz k => ?_, fun hz k _ => ?_⟩
  · exact (hz k (Finset.mem_univ _)).trans_eq (congrArg src (Cert.Attn.Layout.lift_row h p k))
  · exact (hz _).trans_eq (congrArg src (Cert.Attn.Layout.lift_row h p k)).symm

/-- The host's one-operand reduction by `minimum` over one axis, likewise a minimum over that axis's coordinates. -/
theorem hostReduce_min_single {s t u : Shape} {a : Fin s.rank} (x : s.Idx → EReal) (init : u.Idx → EReal)
    (h' : s.ReducesTo [a] t) (h : s.Reduces [a] t) (hu : 0 < u.numel) (j : t.Idx) :
    Host.reduce (FloatOps.minimumf (F := Ideal) (φ := .f32)) x init h' hu j
      = (Finset.univ : Finset (Fin (s.size a))).fold min (init (Shape.Idx.first hu)) (x ∘ h.lift j) :=
  Host.reduce_eq_fold_single _ x init h' h hu j

end Cert.Nearest.MinRead
-- ==== Proof.TileB.lean ====
/-
  The three values one step of the nearest-point computation stores, read at an index.

  The first is +∞ everywhere. The second is, at row p, the smaller of the previous running minimum there and the
  least entry of row p of the distance tile of a block of query points and a block of key points, whose entry (p, q)
  is |x_p|² + |y_q|² − 2·⟨x_p, y_q⟩ with the constant 2 kept as its float word. It is carried by what lies below it: a
  value lies below it exactly when it lies below the previous minimum and below every entry of the row. The third is
  the running minimum with a unit axis put in front.
-/
import proofs.«108210_j36782099923388_2_alg».proof.Proof.TileA
import proofs.«108210_j36782099923388_2_alg».proof.Proof.LibLayout
import proofs.«108210_j36782099923388_2_alg».proof.Proof.LibMin

noncomputable section

namespace Cert.KernelIdeal.Tile

open Cert.KernelIdeal Cert.KernelIdeal.Gen Idealize.ShloMosaic Idealize.ShloMosaic.ValueIdx

/-- The value first stored in the running minimum is +∞ at every entry. -/
theorem pay1_apply (i : S1024x1.Idx) : k0_pay1 (F := Ideal) i = ⊤ := by
  unfold k0_pay1
  rw [shapeCast_self]
  exact ofBits_inf

/-- The squared norms of the rows of x, as a column spread along the rows of the square array: entry (p, k) is
    the squared norm of row p. -/
theorem sqRows_apply (x : FVec Ideal S1024x3 .f32) (hφ : FKind.Formats .f32)
    (hacc : (0x00000000#32 : BitVec 32) = FKind.add.neutral .f32 hφ) (p k : Fin 1024) :
    broadcastTo S1024x1024
        (shapeCast S1024x1 (multiReduction .add [1] S1024 (mulf x x) 0x00000000#32 reduces_S1024x3_S1024 hφ hacc)
          shapeCasts_S1024_S1024x1)
        broadcasts_S1024x1_S1024x1024 (ix2 p k)
      = ∑ d : Fin 3, x (ix2 p d) * x (ix2 p d) :=
  (Cert.Attn.Layout.broadcastTo_a1_ab_apply _ _ p k).trans
    ((Cert.Attn.Layout.shapeCast_a_a1_apply _ _ p 0).trans
      (Cert.Attn.Layout.rowSum_apply _ _ hφ hacc p))

/-- The squared norms of the rows of y, computed as a row of ones against the squares and spread down the rows of
    the square array: entry (p, k) is the squared norm of row k. -/
theorem sqCols_apply (y : FVec Ideal S1024x3 .f32) (p k : Fin 1024) :
    broadcastTo S1024x1024
        (matmul dot_S1x3_S1024x3_S1x1024_1_1_0_0_n_n (some .fp32)
          (broadcast S1x3 (Scalar.ofBits .f32 0x3F800000#32 : Ideal .f32)) (mulf y y)
          (constant S1x1024 .f32 0x00000000#32))
        broadcasts_S1x1024_S1024x1024 (ix2 p k)
      = ∑ d : Fin 3, y (ix2 k d) * y (ix2 k d) := by
  refine (broadcastTo_1b_ab_apply _ _ p k).trans ((rowDot_apply _ _ 0 k).trans ?_)
  refine Finset.sum_congr rfl fun d _ => ?_
  show Ideal.ofBits .f32 0x3F800000#32 * (y (ix2 k d) * y (ix2 k d)) = _
  rw [ofBits_one, one_mul]

/-- One entry of the distance tile of two blocks x, y of points: the squared norm of row p of x plus that of row
    q of y, minus the word 2 times their inner product. -/
theorem tile_apply (x y : FVec Ideal S1024x3 .f32) (hφ : FKind.Formats .f32)
    (hacc : (0x00000000#32 : BitVec 32) = FKind.add.neutral .f32 hφ) (p q : Fin 1024) :
    subf
        (addf
          (broadcastTo S1024x1024
            (shapeCast S1024x1 (multiReduction .add [1] S1024 (mulf x x) 0x00000000#32 reduces_S1024x3_S1024 hφ hacc)
              shapeCasts_S1024_S1024x1)
            broadcasts_S1024x1_S1024x1024)
          (broadcastTo S1024x1024
            (matmul dot_S1x3_S1024x3_S1x1024_1_1_0_0_n_n (some .fp32)
              (broadcast S1x3 (Scalar.ofBits .f32 0x3F800000#32 : Ideal .f32)) (mulf y y)
              (constant S1x1024 .f32 0x00000000#32))
            broadcasts_S1x1024_S1024x1024))
        (mulf (broadcast S1024x1024 (Scalar.ofBits .f32 0x40000000#32 : Ideal .f32))
          (matmul dot_S1024x3_S1024x3_S1024x1024_1_1_0_0_n_n (some .fp32) x y (constant S1024x1024 .f32 0x00000000#32)))
        (ix2 p q)
      = ((∑ d : Fin 3, x (ix2 p d) * x (ix2 p d)) + (∑ d : Fin 3, y (ix2 q d) * y (ix2 q d)))
          - Ideal.ofBits .f32 0x40000000#32 * ∑ d : Fin 3, x (ix2 p d) * y (ix2 q d) :=
  congrArg₂ (· - ·) (congrArg₂ (· + ·) (sqRows_apply x hφ hacc p q) (sqCols_apply y p q))
    (congrArg (Ideal.ofBits .f32 0x40000000#32 * ·) (rowsDot_apply x y p q))

/-- What lies below the stored running minimum at row p: it lies below the previous minimum v22 there, and below
    every entry of row p of the distance tile of the query block v3 and the key block v5. -/
theorem pay2_apply (v3 v5 : Vec Ideal S1x1024x3 .f32) (v22 : Vec Ideal S1024x1 .f32) (p : Fin 1024) (z : EReal) :
    z ≤ k0_pay2 (F := Ideal) v3 v5 v22 (ix2 p (0 : Fin 1)) ↔
      z ≤ v22 (ix2 p (0 : Fin 1)) ∧ ∀ q : Fin 1024,
        z ≤ ((∑ d : Fin 3, v3 (ix3 (0 : Fin 1) p d) * v3 (ix3 (0 : Fin 1) p d))
              + (∑ d : Fin 3, v5 (ix3 (0 : Fin 1) q d) * v5 (ix3 (0 : Fin 1) q d)))
            - Ideal.ofBits .f32 0x40000000#32 * ∑ d : Fin 3, v3 (ix3 (0 : Fin 1) p d) * v5 (ix3 (0 : Fin 1) q d) := by
  unfold k0_pay2
  rw [shapeCast_self]
  refine (show z ≤ min _ _ ↔ _ from le_min_iff).trans (and_congr Iff.rfl ?_)
  rw [Cert.Attn.Layout.shapeCast_a_a1_apply]
  refine (Cert.Nearest.MinRead.le_rowMin _ _ _ _ _ p z).trans ?_
  rw [ofBits_inf]
  refine (and_iff_right le_top).trans (forall_congr' fun q => ?_)
  refine (iff_of_eq (congrArg (z ≤ ·) (tile_apply _ _ _ _ p q))).trans ?_
  simp only [shapeCast_1ab_ab_apply]

/-- The value stored to the output block reads, at (0, r, 0), the running minimum at (r, 0). -/
theorem pay3_apply (v : Vec Ideal S1024x1 .f32) (r : Fin 1024) :
    k0_pay3 (F := Ideal) v (ix3 (0 : Fin 1) r (0 : Fin 1)) = v (ix2 r (0 : Fin 1)) := by
  unfold k0_pay3
  exact shapeCast_ab_1ab_apply v _ 0 r 0

/-- The second call's stored values are the first call's. -/
theorem k1_pay1_eq : k1_pay1 (F := Ideal) = k0_pay1 (F := Ideal) := rfl

theorem k1_pay2_eq (v3 v5 : Vec Ideal S1x1024x3 .f32) (v22 : Vec Ideal S1024x1 .f32) :
    k1_pay2 (F := Ideal) v3 v5 v22 = k0_pay2 (F := Ideal) v3 v5 v22 := rfl

theorem k1_pay3_eq (v : Vec Ideal S1024x1 .f32) : k1_pay3 (F := Ideal) v = k0_pay3 (F := Ideal) v := rfl

end Cert.KernelIdeal.Tile

end
-- ==== Proof.Spec.lean ====
/-
  The squared distance between point n of one cloud and point m of another, in the expanded form
  |x|² + |y|² − 2·⟨x, y⟩ both programs compute, and for each point of the first cloud the least such distance
  over the second cloud. Everything is over the extended reals; the constant 2 is kept as the float word both
  programs print, so it is never evaluated.
-/
import Idealize.ShloMosaic.PureOps.Ideal
import Idealize.ShloMosaic.Lib.ValueIdx

noncomputable section

namespace Cert.Spec

open Idealize.ShloMosaic Idealize.ShloMosaic.ValueIdx

/-- A batch of four clouds of 8192 points in three coordinates. -/
abbrev Cloud : Type := (⟨3, ![4, 8192, 3]⟩ : Shape).Idx → EReal

/-- The squared norm of point `n` of cloud `b`: the sum of the squares of its three coordinates. -/
def sqnorm (x : Cloud) (b : Fin 4) (n : Fin 8192) : EReal :=
  ∑ d : Fin 3, x (ix3 b n d) * x (ix3 b n d)

/-- The inner product of point `n` of `x` and point `m` of `y` in cloud `b`. -/
def inner (x y : Cloud) (b : Fin 4) (n m : Fin 8192) : EReal :=
  ∑ d : Fin 3, x (ix3 b n d) * y (ix3 b m d)

/-- The squared distance |x|² + |y|² − 2·⟨x, y⟩ between point `n` of `x` and point `m` of `y`. -/
def sqdist (x y : Cloud) (b : Fin 4) (n m : Fin 8192) : EReal :=
  (sqnorm x b n + sqnorm y b m) - Ideal.ofBits .f32 0x40000000#32 * inner x y b n m

/-- The least squared distance from point `n` of `x` to a point of `y`, in cloud `b`. -/
def nearest (x y : Cloud) (b : Fin 4) (n : Fin 8192) : EReal :=
  ⨅ m : Fin 8192, sqdist x y b n m

end Cert.Spec

end
-- ==== Proof.Tile.lean ====
/-
  The nearest-point computation, block by block.

  A cloud of 8192 points is read in eight blocks of 1024. For a fixed block of query points the running minimum starts
  at +∞ and, key block after key block, takes the smaller of itself and the row minima of the distance tile of the
  query block and that key block. By induction on the number of key blocks, a value lies below the running minimum at
  query point r exactly when it lies below the squared distance from that point to every key point of the blocks seen
  so far. The eight blocks are the whole cloud, so after the last one the running minimum is the least squared
  distance to the key cloud. The second call stores the same values as the first.
-/
import proofs.«108210_j36782099923388_2_alg».proof.Proof.TileB
import proofs.«108210_j36782099923388_2_alg».proof.Proof.Spec

noncomputable section

namespace Cert.KernelIdeal.Tile

open Cert.KernelIdeal Cert.KernelIdeal.Gen Cert.Spec Idealize.ShloMosaic Idealize.ShloMosaic.ValueIdx

/-- Block i (1024 consecutive points) of cloud b, as a [1,1024,3] vector. -/
def blk (A : Cloud) (b : Fin 4) (i : ℕ) : Vec Ideal S1x1024x3 .f32 :=
  fun y => A (ix3 b ⟨(i * 1024 + (y 1).val) % 8192, Nat.mod_lt _ (by norm_num)⟩ ⟨(y 2).val % 3, Nat.mod_lt _ (by norm_num)⟩)

/-- The running minimum after key blocks 0..j, for query block i of cloud b (first call). -/
def scr0 (Q K : Cloud) (b : Fin 4) (i : ℕ) : ℕ → Vec Ideal S1024x1 .f32
  | 0 => k0_pay2 (F := Ideal) (blk Q b i) (blk K b 0) (k0_pay1 (F := Ideal))
  | j + 1 => k0_pay2 (F := Ideal) (blk Q b i) (blk K b (j + 1)) (scr0 Q K b i j)

/-- The running minimum after key blocks 0..j, for query block i of cloud b (second call). -/
def scr1 (Q K : Cloud) (b : Fin 4) (i : ℕ) : ℕ → Vec Ideal S1024x1 .f32
  | 0 => k1_pay2 (F := Ideal) (blk Q b i) (blk K b 0) (k1_pay1 (F := Ideal))
  | j + 1 => k1_pay2 (F := Ideal) (blk Q b i) (blk K b (j + 1)) (scr1 Q K b i j)

/-- Point r of block i, as a point of the cloud. -/
def pt (i : ℕ) (r : Fin 1024) : Fin 8192 := ⟨(i * 1024 + r.val) % 8192, Nat.mod_lt _ (by norm_num)⟩

/-- For a block index below 8 no wrap-around happens. -/
theorem pt_eq (i : Fin 8) (r : Fin 1024) : pt i.val r = ⟨i.val * 1024 + r.val, by omega⟩ :=
  Fin.ext (Nat.mod_eq_of_lt (by omega))

/-- Every point of the cloud is a point of one of the blocks 0..7. -/
theorem pt_div_mod (m : Fin 8192) : pt (m.val / 1024) ⟨m.val % 1024, Nat.mod_lt _ (by norm_num)⟩ = m :=
  Fin.ext (by
    show (m.val / 1024 * 1024 + m.val % 1024) % 8192 = m.val
    rw [Nat.div_add_mod']
    exact Nat.mod_eq_of_lt m.isLt)

/-- A block at (0, p, d) is the cloud at point p of the block, coordinate d. -/
theorem blk_apply (A : Cloud) (b : Fin 4) (i : ℕ) (p : Fin 1024) (d : Fin 3) :
    blk A b i (ix3 (0 : Fin 1) p d) = A (ix3 b (pt i p) d) := by
  have hd : (⟨d.val % 3, Nat.mod_lt _ (by norm_num)⟩ : Fin 3) = d := Fin.ext (Nat.mod_eq_of_lt d.isLt)
  show A (ix3 b (pt i p) ⟨d.val % 3, Nat.mod_lt _ (by norm_num)⟩) = _
  rw [hd]

/-- The tile entry of query block i and key block j at (p, q) is the squared distance between point p of the one
    and point q of the other. -/
theorem tile_eq (Q K : Cloud) (b : Fin 4) (i j : ℕ) (p q : Fin 1024) :
    ((∑ d : Fin 3, blk Q b i (ix3 (0 : Fin 1) p d) * blk Q b i (ix3 (0 : Fin 1) p d))
        + (∑ d : Fin 3, blk K b j (ix3 (0 : Fin 1) q d) * blk K b j (ix3 (0 : Fin 1) q d)))
      - Ideal.ofBits .f32 0x40000000#32
          * ∑ d : Fin 3, blk Q b i (ix3 (0 : Fin 1) p d) * blk K b j (ix3 (0 : Fin 1) q d)
      = sqdist Q K b (pt i p) (pt j q) := by
  simp only [blk_apply]
  rfl

/-- What lies below the running minimum after key blocks 0..j: exactly what lies below every squared distance to a
    point of those blocks. -/
theorem le_scr0 (Q K : Cloud) (b : Fin 4) (i : ℕ) (r : Fin 1024) (z : EReal) (j : ℕ) :
    z ≤ scr0 Q K b i j (ix2 r (0 : Fin 1))
      ↔ ∀ j' ≤ j, ∀ q : Fin 1024, z ≤ sqdist Q K b (pt i r) (pt j' q) := by
  induction j with
  | zero =>
    show z ≤ k0_pay2 (F := Ideal) (blk Q b i) (blk K b 0) (k0_pay1 (F := Ideal)) (ix2 r (0 : Fin 1)) ↔ _
    refine (pay2_apply _ _ _ r z).trans ?_
    refine (and_congr (iff_of_eq (congrArg (z ≤ ·) (pay1_apply _)))
      (forall_congr' fun q => iff_of_eq (congrArg (z ≤ ·) (tile_eq Q K b i 0 r q)))).trans ?_
    refine (and_iff_right le_top).trans ⟨fun h j' hj' q => ?_, fun h q => h 0 le_rfl q⟩
    obtain rfl : j' = 0 := Nat.le_zero.mp hj'
    exact h q
  | succ j ih =>
    show z ≤ k0_pay2 (F := Ideal) (blk Q b i) (blk K b (j + 1)) (scr0 Q K b i j) (ix2 r (0 : Fin 1)) ↔ _
    refine (pay2_apply _ _ _ r z).trans ?_
    refine (and_congr ih
      (forall_congr' fun q => iff_of_eq (congrArg (z ≤ ·) (tile_eq Q K b i (j + 1) r q)))).trans ?_
    constructor
    · rintro ⟨h1, h2⟩ j' hj' q
      rcases Nat.lt_or_ge j' (j + 1) with h | h
      · exact h1 j' (Nat.lt_succ_iff.mp h) q
      · obtain rfl : j' = j + 1 := le_antisymm hj' h
        exact h2 q
    · intro h
      exact ⟨fun j' hj' q => h j' (Nat.le_succ_of_le hj') q, fun q => h (j + 1) le_rfl q⟩

/-- After all eight key blocks the value stored for point r of query block i is the least squared distance from
    that point to the key cloud. -/
theorem out0_eq (Q K : Cloud) (b : Fin 4) (i : Fin 8) (r : Fin 1024) :
    k0_pay3 (F := Ideal) (scr0 Q K b i.val 7) (ix3 (0 : Fin 1) r (0 : Fin 1))
      = nearest Q K b ⟨i.val * 1024 + r.val, by omega⟩ := by
  rw [pay3_apply]
  refine eq_of_forall_le_iff fun z => ?_
  rw [le_scr0, pt_eq]
  unfold nearest
  rw [le_iInf_iff]
  constructor
  · intro h m
    have hm := m.isLt
    have := h (m.val / 1024) (by omega) ⟨m.val % 1024, Nat.mod_lt _ (by norm_num)⟩
    rwa [pt_div_mod] at this
  · intro h j' _ q
    exact h _

/-- The second call's running minimum is the first call's. -/
theorem scr1_eq (Q K : Cloud) (b : Fin 4) (i j : ℕ) : scr1 Q K b i j = scr0 Q K b i j := by
  induction j with
  | zero => rfl
  | succ j ih =>
    show k1_pay2 (F := Ideal) (blk Q b i) (blk K b (j + 1)) (scr1 Q K b i j)
      = k0_pay2 (F := Ideal) (blk Q b i) (blk K b (j + 1)) (scr0 Q K b i j)
    rw [ih, k1_pay2_eq]

theorem out1_eq (Q K : Cloud) (b : Fin 4) (i : Fin 8) (r : Fin 1024) :
    k1_pay3 (F := Ideal) (scr1 Q K b i.val 7) (ix3 (0 : Fin 1) r (0 : Fin 1))
      = nearest Q K b ⟨i.val * 1024 + r.val, by omega⟩ := by
  rw [k1_pay3_eq, scr1_eq]
  exact out0_eq Q K b i r

end Cert.KernelIdeal.Tile

end
-- ==== Proof.Blocks.lean ====
/-
  The blocks of the two calls' windows, and the cover of the output array.

  Each call runs over a grid of 4 × 8 × 8 points; point t works on cloud t / 64, query block t / 8 % 8 and key block
  t % 8. At point t the query window's block is block t / 8 % 8 of cloud t / 64 of its array, the key window's block
  is block t % 8 of that cloud, and the output window's block is rows (t / 8 % 8) · 1024 … + 1023 of that cloud of the
  output array. The points with key block 7 write their output block back, and those blocks cover the output array:
  row n of cloud b lies in the block of the point b · 64 + (n / 1024) · 8 + 7. What such a point writes back, the
  running minimum after all eight key blocks, is its block of the array of least squared distances.
-/
import proofs.«108210_j36782099923388_2_alg».proof.Proof.Gen.KernelIdeal.Launch
import proofs.«108210_j36782099923388_2_alg».proof.Proof.Gen.KernelIdeal.Points
import proofs.«108210_j36782099923388_2_alg».proof.Proof.Tile
import Idealize.ShloMosaic.Lib.Pipeline.Value
import Idealize.ShloMosaic.Lib.Pipeline.FrameBody

noncomputable section

namespace Cert.KernelIdeal.Blocks

open Cert.KernelIdeal Cert.KernelIdeal.Gen Cert.Spec Idealize.ShloMosaic Idealize.ShloMosaic.TcCoe Idealize.SL.Sem
open Idealize.ShloMosaic.ValueIdx

/-! ## Call 0 -/

/-- The grid's coordinates at point t, in closed form: the cloud, the query block, the key block. -/
theorem coords0 : ∀ t : Fin cfg0.N, (grid0.coords t 0).val = t.val / 64 ∧ (grid0.coords t 1).val = t.val / 8 % 8
    ∧ (grid0.coords t 2).val = t.val % 8 :=
  (by decide +kernel : ∀ t : Fin grid0.N, _)

/-- The three windows' block indices at point t, in closed form. -/
theorem idx0 : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = t.val / 8 % 8 ∧ win0_2.index t (2 : Fin 3) = 0 :=
  (by decide +kernel : ∀ t : Fin grid0.N, _)

/-- A point of the grid is below 256. -/
theorem lt0 (t : Fin cfg0.N) : t.val < 256 := t.isLt.trans_eq N_0

/-- The cloud of a point is one of the four. -/
theorem cloud_lt0 (t : Fin cfg0.N) : t.val / 64 < 4 := by have := lt0 t; omega

/-- The query window's block at point t is block t / 8 % 8 of cloud t / 64 of its array. -/
theorem blk0_q (A : Cloud) (t : Fin cfg0.N) :
    ((cfg0.win 0).blk t).view.read (Elt Ideal) A = Tile.blk A ⟨t.val / 64, cloud_lt0 t⟩ (t.val / 8 % 8) := by
  funext y
  rw [View.read_apply]
  show A (((cfg0.win 0).blk t).view.emb y) = _
  obtain ⟨e0, e1, e2, -, -, -, -, -, -⟩ := idx0 t
  have h0 : (y 0).val < 1 := (y 0).isLt
  have h1 : (y 1).val < 1024 := (y 1).isLt
  have h2 : (y 2).val < 3 := (y 2).isLt
  refine congrArg A (funext fun a => Fin.ext ?_)
  match a with
  | ⟨0, _⟩ => show win0_0.index t (0 : Fin 3) * 1 + 1 * (y 0).val = t.val / 64; omega
  | ⟨1, _⟩ => show win0_0.index t (1 : Fin 3) * 1024 + 1 * (y 1).val = (t.val / 8 % 8 * 1024 + (y 1).val) % 8192; omega
  | ⟨2, _⟩ => show win0_0.index t (2 : Fin 3) * 3 + 1 * (y 2).val = (y 2).val % 3; omega

/-- The key window's block at point t is block t % 8 of cloud t / 64 of its array. -/
theorem blk0_k (A : Cloud) (t : Fin cfg0.N) :
    ((cfg0.win 1).blk t).view.read (Elt Ideal) A = Tile.blk A ⟨t.val / 64, cloud_lt0 t⟩ (t.val % 8) := by
  funext y
  rw [View.read_apply]
  show A (((cfg0.win 1).blk t).view.emb y) = _
  obtain ⟨-, -, -, e0, e1, e2, -, -, -⟩ := idx0 t
  have h0 : (y 0).val < 1 := (y 0).isLt
  have h1 : (y 1).val < 1024 := (y 1).isLt
  have h2 : (y 2).val < 3 := (y 2).isLt
  refine congrArg A (funext fun a => Fin.ext ?_)
  match a with
  | ⟨0, _⟩ => show win0_1.index t (0 : Fin 3) * 1 + 1 * (y 0).val = t.val / 64; omega
  | ⟨1, _⟩ => show win0_1.index t (1 : Fin 3) * 1024 + 1 * (y 1).val = (t.val % 8 * 1024 + (y 1).val) % 8192; omega
  | ⟨2, _⟩ => show win0_1.index t (2 : Fin 3) * 3 + 1 * (y 2).val = (y 2).val % 3; omega

/-- A row of the output block of point t is a row of the array. -/
theorem row_lt (t r : ℕ) (hr : r < 1024) : t / 8 % 8 * 1024 + r < 8192 := by omega

/-- The output window's block at point t, read at y, is the array at cloud t / 64, row (t / 8 % 8) * 1024 + y 1. -/
theorem read_out0 (G : S4x8192x1.Idx → EReal) (t : Fin cfg0.N) (y : ((cfg0.win 2).xblock (cfg0.grid.coords t)).Idx) :
    ((cfg0.win 2).blk t).view.read (Elt Ideal) G y
      = G (ix3 ⟨t.val / 64, cloud_lt0 t⟩ ⟨t.val / 8 % 8 * 1024 + (y 1).val, row_lt t.val _ (y 1).isLt⟩ (0 : Fin 1)) := by
  rw [View.read_apply]
  show G (((cfg0.win 2).blk t).view.emb y) = _
  obtain ⟨-, -, -, -, -, -, e0, e1, e2⟩ := idx0 t
  have h0 : (y 0).val < 1 := (y 0).isLt
  have h1 : (y 1).val < 1024 := (y 1).isLt
  have h2 : (y 2).val < 1 := (y 2).isLt
  refine congrArg G (funext fun a => Fin.ext ?_)
  match a with
  | ⟨0, _⟩ => show win0_2.index t (0 : Fin 3) * 1 + 1 * (y 0).val = t.val / 64; omega
  | ⟨1, _⟩ => show win0_2.index t (1 : Fin 3) * 1024 + 1 * (y 1).val = t.val / 8 % 8 * 1024 + (y 1).val; omega
  | ⟨2, _⟩ => show win0_2.index t (2 : Fin 3) * 1 + 1 * (y 2).val = 0; omega

/-- An index of the output array is in point t's block iff each coordinate is in the block's range on its axis. -/
theorem mem_blk0 (t : Fin cfg0.N) (i : S4x8192x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v0).slice (win0_2.rect t)).set ↔ _
  rw [View.set_slice_whole, Rect.mem_set_unit]
  exact Iff.rfl

/-- Every index (b, n, 0) of the output array is in the block of a point that writes back: the point of cloud b,
    query block n / 1024 and the last key block. -/
theorem cover0 (i : S4x8192x1.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1 := (i 2).isLt
  have hlt : (i 0).val * 64 + (i 1).val / 1024 * 8 + 7 < 256 := by omega
  let t : Fin cfg0.N := ⟨(i 0).val * 64 + (i 1).val / 1024 * 8 + 7, hlt.trans_eq N_0.symm⟩
  have tv : t.val = (i 0).val * 64 + (i 1).val / 1024 * 8 + 7 := rfl
  refine ⟨t, (flush0_2 t).mpr (by omega), ?_⟩
  rw [mem_blk0]
  obtain ⟨-, -, -, -, -, -, e0, e1, e2⟩ := idx0 t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1 ≤ (i 2).val ∧ (i 2).val < win0_2.index t (2 : Fin 3) * 1 + 1
    omega

/-! ## Call 1 -/

/-- The grid's coordinates at point t, in closed form: the cloud, the query block, the key block. -/
theorem coords1 : ∀ t : Fin cfg1.N, (grid1.coords t 0).val = t.val / 64 ∧ (grid1.coords t 1).val = t.val / 8 % 8
    ∧ (grid1.coords t 2).val = t.val % 8 :=
  (by decide +kernel : ∀ t : Fin grid1.N, _)

/-- The three windows' block indices at point t, in closed form. -/
theorem idx1 : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = t.val % 8 ∧ win1_1.index t (2 : Fin 3) = 0
    ∧ win1_2.index t (0 : Fin 3) = t.val / 64 ∧ win1_2.index t (1 : Fin 3) = t.val / 8 % 8 ∧ win1_2.index t (2 : Fin 3) = 0 :=
  (by decide +kernel : ∀ t : Fin grid1.N, _)

/-- A point of the grid is below 256. -/
theorem lt1 (t : Fin cfg1.N) : t.val < 256 := t.isLt.trans_eq N_1

/-- The cloud of a point is one of the four. -/
theorem cloud_lt1 (t : Fin cfg1.N) : t.val / 64 < 4 := by have := lt1 t; omega

/-- The query window's block at point t is block t / 8 % 8 of cloud t / 64 of its array. -/
theorem blk1_q (A : Cloud) (t : Fin cfg1.N) :
    ((cfg1.win 0).blk t).view.read (Elt Ideal) A = Tile.blk A ⟨t.val / 64, cloud_lt1 t⟩ (t.val / 8 % 8) := by
  funext y
  rw [View.read_apply]
  show A (((cfg1.win 0).blk t).view.emb y) = _
  obtain ⟨e0, e1, e2, -, -, -, -, -, -⟩ := idx1 t
  have h0 : (y 0).val < 1 := (y 0).isLt
  have h1 : (y 1).val < 1024 := (y 1).isLt
  have h2 : (y 2).val < 3 := (y 2).isLt
  refine congrArg A (funext fun a => Fin.ext ?_)
  match a with
  | ⟨0, _⟩ => show win1_0.index t (0 : Fin 3) * 1 + 1 * (y 0).val = t.val / 64; omega
  | ⟨1, _⟩ => show win1_0.index t (1 : Fin 3) * 1024 + 1 * (y 1).val = (t.val / 8 % 8 * 1024 + (y 1).val) % 8192; omega
  | ⟨2, _⟩ => show win1_0.index t (2 : Fin 3) * 3 + 1 * (y 2).val = (y 2).val % 3; omega

/-- The key window's block at point t is block t % 8 of cloud t / 64 of its array. -/
theorem blk1_k (A : Cloud) (t : Fin cfg1.N) :
    ((cfg1.win 1).blk t).view.read (Elt Ideal) A = Tile.blk A ⟨t.val / 64, cloud_lt1 t⟩ (t.val % 8) := by
  funext y
  rw [View.read_apply]
  show A (((cfg1.win 1).blk t).view.emb y) = _
  obtain ⟨-, -, -, e0, e1, e2, -, -, -⟩ := idx1 t
  have h0 : (y 0).val < 1 := (y 0).isLt
  have h1 : (y 1).val < 1024 := (y 1).isLt
  have h2 : (y 2).val < 3 := (y 2).isLt
  refine congrArg A (funext fun a => Fin.ext ?_)
  match a with
  | ⟨0, _⟩ => show win1_1.index t (0 : Fin 3) * 1 + 1 * (y 0).val = t.val / 64; omega
  | ⟨1, _⟩ => show win1_1.index t (1 : Fin 3) * 1024 + 1 * (y 1).val = (t.val % 8 * 1024 + (y 1).val) % 8192; omega
  | ⟨2, _⟩ => show win1_1.index t (2 : Fin 3) * 3 + 1 * (y 2).val = (y 2).val % 3; omega

/-- The output window's block at point t, read at y, is the array at cloud t / 64, row (t / 8 % 8) * 1024 + y 1. -/
theorem read_out1 (G : S4x8192x1.Idx → EReal) (t : Fin cfg1.N) (y : ((cfg1.win 2).xblock (cfg1.grid.coords t)).Idx) :
    ((cfg1.win 2).blk t).view.read (Elt Ideal) G y
      = G (ix3 ⟨t.val / 64, cloud_lt1 t⟩ ⟨t.val / 8 % 8 * 1024 + (y 1).val, row_lt t.val _ (y 1).isLt⟩ (0 : Fin 1)) := by
  rw [View.read_apply]
  show G (((cfg1.win 2).blk t).view.emb y) = _
  obtain ⟨-, -, -, -, -, -, e0, e1, e2⟩ := idx1 t
  have h0 : (y 0).val < 1 := (y 0).isLt
  have h1 : (y 1).val < 1024 := (y 1).isLt
  have h2 : (y 2).val < 1 := (y 2).isLt
  refine congrArg G (funext fun a => Fin.ext ?_)
  match a with
  | ⟨0, _⟩ => show win1_2.index t (0 : Fin 3) * 1 + 1 * (y 0).val = t.val / 64; omega
  | ⟨1, _⟩ => show win1_2.index t (1 : Fin 3) * 1024 + 1 * (y 1).val = t.val / 8 % 8 * 1024 + (y 1).val; omega
  | ⟨2, _⟩ => show win1_2.index t (2 : Fin 3) * 1 + 1 * (y 2).val = 0; omega

/-- An index of the output array is in point t's block iff each coordinate is in the block's range on its axis. -/
theorem mem_blk1 (t : Fin cfg1.N) (i : S4x8192x1.Idx) :
    i ∈ ((cfg1.win 2).blk t).view.set ↔ ∀ a : Fin 3, win1_2.index t a * S1x1024x1.size a ≤ (i a).val
      ∧ (i a).val < win1_2.index t a * S1x1024x1.size a + S1x1024x1.size a := by
  show i ∈ ((View.whole main_v2).slice (win1_2.rect t)).set ↔ _
  rw [View.set_slice_whole, Rect.mem_set_unit]
  exact Iff.rfl

/-- Every index (b, n, 0) of the output array is in the block of a point that writes back: the point of cloud b,
    query block n / 1024 and the last key block. -/
theorem cover1 (i : S4x8192x1.Idx) :
    ∃ t : Fin cfg1.N, (cfg1.win 2).flush t = true ∧ i ∈ ((cfg1.win 2).blk t).view.set := by
  have h0 : (i 0).val < 4 := (i 0).isLt
  have h1 : (i 1).val < 8192 := (i 1).isLt
  have h2 : (i 2).val < 1 := (i 2).isLt
  have hlt : (i 0).val * 64 + (i 1).val / 1024 * 8 + 7 < 256 := by omega
  let t : Fin cfg1.N := ⟨(i 0).val * 64 + (i 1).val / 1024 * 8 + 7, hlt.trans_eq N_1.symm⟩
  have tv : t.val = (i 0).val * 64 + (i 1).val / 1024 * 8 + 7 := rfl
  refine ⟨t, (flush1_2 t).mpr (by omega), ?_⟩
  rw [mem_blk1]
  obtain ⟨-, -, -, -, -, -, e0, e1, e2⟩ := idx1 t
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 1024 ≤ (i 1).val ∧ (i 1).val < win1_2.index t (1 : Fin 3) * 1024 + 1024
    omega
  | ⟨2, _⟩ =>
    show win1_2.index t (2 : Fin 3) * 1 ≤ (i 2).val ∧ (i 2).val < win1_2.index t (2 : Fin 3) * 1 + 1
    omega

/-! ## The block a point writes back is a block of the nearest-distance array -/

/-- An index of a [1, 1024, 1] block is (0, r, 0). -/
theorem eq_ix3_row (y : S1x1024x1.Idx) : y = ix3 (0 : Fin 1) (y 1) (0 : Fin 1) := by
  funext a
  match a with
  | ⟨0, _⟩ => exact Fin.ext (Nat.lt_one_iff.mp (y 0).isLt)
  | ⟨1, _⟩ => rfl
  | ⟨2, _⟩ => exact Fin.ext (Nat.lt_one_iff.mp (y 2).isLt)

/-- The least squared distances from the points of Q to the cloud K, as an array [4, 8192, 1]. -/
def nearestArr (Q K : Cloud) : S4x8192x1.Idx → EReal := fun idx => nearest Q K (idx 0) (idx 1)

/-- First call: what the running minimum after all eight key blocks stores for point t's query block is point t's
    block of the nearest-distance array. -/
theorem out0_blk (Q K : Cloud) (t : Fin cfg0.N) :
    k0_pay3 (F := Ideal) (Tile.scr0 Q K ⟨t.val / 64, cloud_lt0 t⟩ (t.val / 8 % 8) 7)
      = ((cfg0.win 2).blk t).view.read (Elt Ideal) (nearestArr Q K) := by
  funext y
  refine Eq.trans ?_ (read_out0 (nearestArr Q K) t y).symm
  refine (congrArg _ (eq_ix3_row y)).trans ?_
  exact Tile.out0_eq Q K ⟨t.val / 64, cloud_lt0 t⟩ ⟨t.val / 8 % 8, Nat.mod_lt _ (by norm_num)⟩ (y 1)

/-- Second call, likewise. -/
theorem out1_blk (Q K : Cloud) (t : Fin cfg1.N) :
    k1_pay3 (F := Ideal) (Tile.scr1 Q K ⟨t.val / 64, cloud_lt1 t⟩ (t.val / 8 % 8) 7)
      = ((cfg1.win 2).blk t).view.read (Elt Ideal) (nearestArr Q K) := by
  funext y
  refine Eq.trans ?_ (read_out1 (nearestArr Q K) t y).symm
  refine (congrArg _ (eq_ix3_row y)).trans ?_
  exact Tile.out1_eq Q K ⟨t.val / 64, cloud_lt1 t⟩ ⟨t.val / 8 % 8, Nat.mod_lt _ (by norm_num)⟩ (y 1)

end Cert.KernelIdeal.Blocks

end
-- ==== Proof.KI.Value0.lean ====
/-
  The value of call 0's output array.

  Each case of the body leaves in the running minimum's buffer the kernel's lowering step applied to the point's query
  block, its key block and the previous running minimum (+∞ at the first key block), and at the last key block leaves
  in the output block's buffer that result with a unit axis in front. By induction along the grid, after the point of
  cloud b, query block i and key block k the running minimum's buffer holds the running minimum of that cloud and
  query block after key blocks 0..k. The points of the last key block write their block back; those blocks are the
  blocks of the array of least squared distances and they cover the output array, which therefore ends holding it.
-/
import proofs.«108210_j36782099923388_2_alg».proof.Proof.KI.Reg0
import proofs.«108210_j36782099923388_2_alg».proof.Proof.Tile
import proofs.«108210_j36782099923388_2_alg».proof.Proof.Blocks
import Idealize.ShloMosaic.Lib.Pipeline.Value
import Idealize.ShloMosaic.Lib.Tactic

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-- The zero offsets of a whole rank-two and a whole rank-three buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves, as the kernel's named values -/

/-- First key block: the running minimum is reset to +∞ and lowered by this block's distances. -/
theorem sout0A_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 x1 : Vec F S1x1024x3 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, View.ld_unit_zero (S := S1x1024x3) hz3,
    View.readCov_unit_zero (S := S1024x1) _ hz2]

/-- A middle key block: the running minimum is lowered by this block's distances. -/
theorem sout0B_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 x1 : Vec F S1x1024x3 .f32) (xs0 : Vec F S1024x1 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread,
    View.ld_unit_zero (S := S1x1024x3) hz3, View.ld_unit_zero (S := S1024x1) hz2]

/-- The last key block: the running minimum is lowered by this block's distances. -/
theorem sout0C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread,
    View.ld_unit_zero (S := S1x1024x3) hz3, View.ld_unit_zero (S := S1024x1) hz2]

/-- The last key block: the output block takes the running minimum just stored, a unit axis put in front. -/
theorem out0C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 x1 : Vec F S1x1024x3 .f32) (xs0 : Vec F S1024x1 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3]
  simp only [View.readAt_eq_ld, harg3.read_unread, harg4.read_unread, harg6.read_unread,
    View.ld_unit_zero (S := S1x1024x3) hz3, View.ld_unit_zero (S := S1024x1) hz2,
    View.readCov_unit_zero (S := S1024x1) _ hz2]

/-! ## The running minimum after every point -/

section Region
variable (V : (c : Dev nD) → (b : Ref sig .tc) → Buf (Elt Ideal) ((c : Thread nD τ).loc b))

/-- The query cloud and the key cloud of this call, as the call finds them. -/
abbrev qCloud0 (c : Dev nD) : Cloud := V c main_arg0
abbrev kCloud0 (c : Dev nD) : Cloud := V c main_arg1

/-- The cloud a position of the grid works on. -/
abbrev cloudAt (n : ℕ) : Fin 4 := ⟨n / 64 % 4, Nat.mod_lt _ (by norm_num)⟩

theorem cloudAt_eq0 (t : Fin cfg0.N) : (⟨t.val / 64, Blocks.cloud_lt0 t⟩ : Fin 4) = cloudAt t.val :=
  Fin.ext (Nat.mod_eq_of_lt (Blocks.cloud_lt0 t)).symm

/-- The query window's block at a point is the point's query block of the query cloud. -/
theorem iblk0_q (c : Dev nD) (t : Fin cfg0.N) :
    iblk0 V c 0 t = Tile.blk (qCloud0 V c) (cloudAt t.val) (t.val / 8 % 8) :=
  (Blocks.blk0_q (qCloud0 V c) t).trans (congrArg (fun b => Tile.blk (qCloud0 V c) b (t.val / 8 % 8)) (cloudAt_eq0 t))

/-- The key window's block at a point is the point's key block of the key cloud. -/
theorem iblk0_k (c : Dev nD) (t : Fin cfg0.N) :
    iblk0 V c 1 t = Tile.blk (kCloud0 V c) (cloudAt t.val) (t.val % 8) :=
  (Blocks.blk0_k (kCloud0 V c) t).trans (congrArg (fun b => Tile.blk (kCloud0 V c) b (t.val % 8)) (cloudAt_eq0 t))

/-- One more key block seen: the running minimum of the next position in the same row of the grid. -/
theorem scr0_step (Q Kc : Cloud) (b b' : Fin 4) (i i' k k' : ℕ) (hb : b' = b) (hi : i' = i) (hk : k = k' + 1) :
    k0_pay2 (F := Ideal) (Tile.blk Q b i) (Tile.blk Kc b k) (Tile.scr0 Q Kc b' i' k') = Tile.scr0 Q Kc b i k := by
  subst hb hi hk; rfl

/-- After a point the running minimum's buffer holds the running minimum of the point's cloud and query block after
    the key blocks up to the point's. -/
theorem outs0_snd_aux (c : Dev nD) : ∀ (n : ℕ) (t : Fin cfg0.N), t.val = n →
    (outsAt0 V c t.val t.isLt).2
      = Tile.scr0 (qCloud0 V c) (kCloud0 V c) (cloudAt t.val) (t.val / 8 % 8) (t.val % 8) := by
  intro n
  induction n using Nat.strong_induction_on with
  | _ n ih =>
    intro t ht
    by_cases h0 : t.val % 8 = 0
    · rw [outsAt0_A V c t h0]
      dsimp only
      rw [sout0A_eq (F := Ideal), iblk0_q V c t, iblk0_k V c t, h0]
      rfl
    · have hprev : (outsAt0 V c (t.val - 1) (Nat.lt_of_le_of_lt (Nat.sub_le _ _) t.isLt)).2
          = Tile.scr0 (qCloud0 V c) (kCloud0 V c) (cloudAt (t.val - 1)) ((t.val - 1) / 8 % 8) ((t.val - 1) % 8) :=
        ih (t.val - 1) (by omega) ⟨t.val - 1, Nat.lt_of_le_of_lt (Nat.sub_le _ _) t.isLt⟩ rfl
      have hb : cloudAt (t.val - 1) = cloudAt t.val := Fin.ext (by show (t.val - 1) / 64 % 4 = t.val / 64 % 4; omega)
      have hi : (t.val - 1) / 8 % 8 = t.val / 8 % 8 := by omega
      have hk : t.val % 8 = (t.val - 1) % 8 + 1 := by omega
      by_cases h7 : t.val % 8 = 7
      · rw [outsAt0_C V c t h0 h7]
        dsimp only
        rw [sout0C_eq (F := Ideal), iblk0_q V c t, iblk0_k V c t, hprev]
        exact scr0_step _ _ _ _ _ _ _ _ hb hi hk
      · rw [outsAt0_B V c t h0 h7]
        dsimp only
        rw [sout0B_eq (F := Ideal), iblk0_q V c t, iblk0_k V c t, hprev]
        exact scr0_step _ _ _ _ _ _ _ _ hb hi hk

theorem outs0_snd (c : Dev nD) (t : Fin cfg0.N) :
    (outsAt0 V c t.val t.isLt).2
      = Tile.scr0 (qCloud0 V c) (kCloud0 V c) (cloudAt t.val) (t.val / 8 % 8) (t.val % 8) :=
  outs0_snd_aux V c t.val t rfl

/-- At a point of the last key block the output block's buffer holds the final running minimum, a unit axis in front. -/
theorem outs0_fst (c : Dev nD) (t : Fin cfg0.N) (h7 : t.val % 8 = 7) :
    (outsAt0 V c t.val t.isLt).1
      = k0_pay3 (F := Ideal) (Tile.scr0 (qCloud0 V c) (kCloud0 V c) (cloudAt t.val) (t.val / 8 % 8) 7) := by
  have h0 : ¬t.val % 8 = 0 := by omega
  have e2 := outs0_snd V c t
  rw [outsAt0_C V c t h0 h7] at e2 ⊢
  dsimp only at e2 ⊢
  rw [sout0C_eq (F := Ideal)] at e2
  rw [out0C_eq (F := Ideal), e2, h7]

/-! ## The output array after the call -/

/-- What a point of the last key block writes back is its block of the array of least squared distances. -/
theorem flushed0_eq (c : Dev nD) (t : Fin cfg0.N) (hf : (cfg0.win 2).flush t = true) :
    (dat0 V c).flushed 2 t
      = ((cfg0.win 2).blk t).view.read (Elt Ideal) (Blocks.nearestArr (qCloud0 V c) (kCloud0 V c)) := by
  have h7 : t.val % 8 = 7 := (flush0_2 t).mp hf
  show (cfg0.win 2).cut (grid0.coords t) ((dat0 V c).after 2 t) = _
  rw [after0_2, outs0_fst V c t h7, ← cloudAt_eq0 t]
  exact Blocks.out0_blk (qCloud0 V c) (kCloud0 V c) t

/-- After the call the output array holds, for every point of the query cloud, the least squared distance to the key
    cloud. -/
theorem final0 (c : Dev nD) :
    (dat0 V c).arrAt 2 cfg0.N = Blocks.nearestArr (V c main_arg0) (V c main_arg1) :=
  (dat0 V c).arrAt_eq_of_cover 2 (Blocks.nearestArr (qCloud0 V c) (kCloud0 V c)) (flushed0_eq V c) Blocks.cover0

end Region

end Cert.KernelIdeal.Hand

end
-- ==== Proof.KI.Base1.lean ====
/-
  Call 1 of the program (the nearest-point kernel on its 4 x 8 x 8 grid): where its two branches are taken,
  where its output window is idle, the staging and scratch buffers it is called on, and the body run once per
  branch assignment. The grid's last coordinate k counts the key blocks of one query block: the first branch
  (reset the running minimum to +infinity) is taken exactly when k = 0, the second (copy the running minimum to
  the output block) exactly when k = 7.
-/
import proofs.«108210_j36782099923388_2_alg».proof.Proof.Gen.KernelIdeal.Launch
import proofs.«108210_j36782099923388_2_alg».proof.Proof.Gen.KernelIdeal.Skeleton
import proofs.«108210_j36782099923388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch: taken when the grid's last coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The write-out branch: taken when the grid's last coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the write-out branch is not taken the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called on -/

abbrev VO1_2 : View sig .tc .vmem S1x1024x1 .f32 := (Memref.whole cc1_stg2_0 : Memref sig .tc .vmem S1x1024x1 .f32).view
abbrev ms1_0 (t : Fin cfg1.N) : Memref sig .tc .vmem S1x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
/-- The running minimum's buffer. -/
abbrev scM1 : Memref sig .tc .vmem S1024x1 .f32 := Memref.whole cc1_scratch0
abbrev VS1 : View sig .tc .vmem S1024x1 .f32 := scM1.view

/-- The scoped buffers of the other call, each whole at some contents: they ride through this call untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The invariant the launch hands the call: the running minimum's buffer at some contents, the other call's scoped
    buffers, the generator register at some state. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA rest1; rw [scopedRest1_eq]; simp only [scM1, owns_whole]
  refine Entails.antisymm (show (_ : sProp 𝕄) ⊢ _ from ?_) (show (_ : sProp 𝕄) ⊢ _ from ?_)
  · iintro ⟨⟨H1, H2, H3, H4, H5, H6, H7, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      iexact H7
    iexact Hg
  · iintro ⟨⟨HS, H1, H2, H3, H4, H5, H6, H7⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact HS
    iexact Hg

end Cert.KernelIdeal.Hand

end
-- ==== Proof.KI.Run1A.lean ====
/-
  The body of call 1 run on whole staging buffers in the case of the first key block (k = 0): the running minimum is reset, then lowered by this block's distances; nothing is written to the output block.
  The run ends with the two input blocks as they were and each buffer the body stored into at its stores, listed as pieces.
-/
import proofs.«108210_j36782099923388_2_alg».proof.Proof.KI.Base1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ (∃ d, owns (c : Thread nD τ) arg6 fullShare d)
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc1__min_dist_kernel i arg3 harg3 arg4 harg4 arg5 harg5 arg6 harg6) K } := by
  refine ⟨[], ?_, fun d2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.KernelIdeal.Hand

end
-- ==== Proof.KI.Run1B.lean ====
/-
  The body of call 1 run on whole staging buffers in the case of a middle key block (0 < k < 7): the running minimum the point before left is lowered by this block's distances.
  The run ends with the two input blocks as they were and each buffer the body stored into at its stores, listed as pieces.
-/
import proofs.«108210_j36782099923388_2_alg».proof.Proof.KI.Base1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (d2 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare d2 ∗ owns (c : Thread nD τ) arg6 fullShare xs0
            ∗ (iprop(owns (c : Thread nD τ) arg3 fullShare x0 ∗ owns (c : Thread nD τ) arg4 fullShare x1 ∗ owns (c : Thread nD τ) arg5 fullShare d2 ∗ (∃ f, arg6.view.loc (c : Thread nD τ) ↦[arg6.view.set]{fullShare} arg6.view.writes (Elt F) f LS0)) -∗ K ⟨⟩))
          ⊢ wp frame (wpE (defs₀ (F := F)) Variants.none c none) E (cc1__min_dist_kernel i arg3 harg3 arg4 harg4 arg5 harg5 arg6 harg6) K } := by
  refine ⟨[], ?_, fun d2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    iexists _; iexact HS0

end Cert.KernelIdeal.Hand

end
-- ==== Proof.KI.Run1C.lean ====
/-
  The body of call 1 run on whole staging buffers in the case of the last key block (k = 7): the running minimum is lowered by this block's distances and copied to the output block.
  The run ends with the two input blocks as they were and each buffer the body stored into at its stores, listed as pieces.
-/
import proofs.«108210_j36782099923388_2_alg».proof.Proof.KI.Base1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) :
    Σ' (L2 : List (View.Piece (Elt F) S1x1024x1 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__min_dist_kernel i arg3 harg3 arg4 harg4 arg5 harg5 arg6 harg6) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Reg1.lean ====
/-
  Call 1 over the grid: each window's block at a grid point as read off the arrays the call is entered with,
  what the body leaves after every point — the running minimum's buffer carried from point to point, the output
  block written where the last key block has been seen —, the proof data of the pipeline, and the body's
  obligation at every point.
-/
import proofs.«108210_j36782099923388_2_alg».proof.Proof.KI.Run1A
import proofs.«108210_j36782099923388_2_alg».proof.Proof.KI.Run1B
import proofs.«108210_j36782099923388_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The stores of this case cover the running minimum's buffer (one whole store). -/
theorem scover1_A_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) (y : S1024x1.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1.size (by sl_kernel_rfl) y

/-- What this case leaves in the running minimum's buffer: its stores read back. -/
def sout1_A_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) : Vec F S1024x1 .f32 :=
  VS1.read (Elt F) (VS1.writes (Elt F) VS1.junk (kernelRun1_A c i arg3 harg3 arg4 harg4 arg5 harg5 arg6 harg6 hc0 hc1 x0 x1).2.1)

/-- What this case leaves in the output block's buffer: its stores read back (none: a placeholder nothing consults, the window being idle and not written back here). -/
def out1_A_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) : Vec F S1x1024x1 .f32 :=
  VO1_2.read (Elt F) (VO1_2.writes (Elt F) VO1_2.junk (kernelRun1_A c i arg3 harg3 arg4 harg4 arg5 harg5 arg6 harg6 hc0 hc1 x0 x1).1)

/-- The stores of this case cover the running minimum's buffer (one whole store). -/
theorem scover1_B_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) (y : S1024x1.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1.size (by sl_kernel_rfl) y

/-- What this case leaves in the running minimum's buffer: its stores read back. -/
def sout1_B_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) : Vec F S1024x1 .f32 :=
  VS1.read (Elt F) (VS1.writes (Elt F) VS1.junk (kernelRun1_B c i arg3 harg3 arg4 harg4 arg5 harg5 arg6 harg6 hc0 hc1 x0 x1 xs0).2.1)

/-- What this case leaves in the output block's buffer: its stores read back (none: a placeholder nothing consults, the window being idle and not written back here). -/
def out1_B_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) : Vec F S1x1024x1 .f32 :=
  VO1_2.read (Elt F) (VO1_2.writes (Elt F) VO1_2.junk (kernelRun1_B c i arg3 harg3 arg4 harg4 arg5 harg5 arg6 harg6 hc0 hc1 x0 x1 xs0).1)

/-- The stores of this case cover the running minimum's buffer (one whole store). -/
theorem scover1_C_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) (y : S1024x1.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1.size (by sl_kernel_rfl) y

/-- What this case leaves in the running minimum's buffer: its stores read back. -/
def sout1_C_0 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) : Vec F S1024x1 .f32 :=
  VS1.read (Elt F) (VS1.writes (Elt F) VS1.junk (kernelRun1_C c i arg3 harg3 arg4 harg4 arg5 harg5 arg6 harg6 hc0 hc1 x0 x1 xs0).2.1)

/-- What this case leaves in the output block's buffer: its stores read back. -/
def out1_C_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) : Vec F S1x1024x1 .f32 :=
  VO1_2.read (Elt F) (VO1_2.writes (Elt F) VO1_2.junk (kernelRun1_C c i arg3 harg3 arg4 harg4 arg5 harg5 arg6 harg6 hc0 hc1 x0 x1 xs0).1)

/-- The stores of this case cover the output block's buffer (one whole store). -/
theorem cover1_C_2 (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) (y : S1x1024x1.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x1024x1.size (by sl_kernel_rfl) y

/-! ## What the buffers hold after each point -/

/-- After the body at position `n`: the output block's buffer and the running minimum's buffer. The case is read off
    the position's residue mod 8 (the key block's number); a case that starts from the running minimum takes what the
    position before left. -/
def outsAt1 (c : Dev nD) : (n : ℕ) → n < cfg1.N → Vec F S1x1024x1 .f32 × Vec F S1024x1 .f32
  | 0, hn => (fun (t : Fin cfg1.N) (h0 : t.val % 8 = 0) => (out1_A_2 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t))) ⟨0, hn⟩ (Nat.zero_mod _)
  | n + 1, hn =>
    if h0 : (n + 1) % 8 = 0 then
      (fun (t : Fin cfg1.N) (h0 : t.val % 8 = 0) => (out1_A_2 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t))) ⟨n + 1, hn⟩ h0
    else if h7 : (n + 1) % 8 = 7 then
      (fun (t : Fin cfg1.N) (h0 : ¬t.val % 8 = 0) (h7 : t.val % 8 = 7) (prev : Vec F S1024x1 .f32) => (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) prev, sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) prev)) ⟨n + 1, hn⟩ h0 h7 (outsAt1 c n (Nat.lt_of_succ_lt hn)).2
    else
      (fun (t : Fin cfg1.N) (h0 : ¬t.val % 8 = 0) (h7 : ¬t.val % 8 = 7) (prev : Vec F S1024x1 .f32) => (out1_B_2 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) prev, sout1_B_0 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) prev)) ⟨n + 1, hn⟩ h0 h7 (outsAt1 c n (Nat.lt_of_succ_lt hn)).2

theorem outsAt1_A (c : Dev nD) (t : Fin cfg1.N) (h0 : t.val % 8 = 0) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t)) := by
  obtain ⟨n, hn⟩ := t
  cases n with
  | zero => rfl
  | succ n => exact (dif_pos h0).trans rfl

theorem outsAt1_B (c : Dev nD) (t : Fin cfg1.N) (h0 : ¬t.val % 8 = 0) (h7 : ¬t.val % 8 = 7) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1 (Memref.isWhole_whole _) (fun h => h0 ((hcond1_0 t).mp h)) (fun h => h7 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt1_C (c : Dev nD) (t : Fin cfg1.N) (h0 : ¬t.val % 8 = 0) (h7 : t.val % 8 = 7) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-- The call's invariant before position `n`: before the first point what the launch hands over; afterwards the running
    minimum's buffer at what the point before left, the other call's scoped buffers, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the position's residue mod 8 says which case the point
    is in; the invariant hands the body the running minimum at what the point before left (anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 8 = 0
  ·
    rw [Dat.leavesExact_idle (dat1 V c) 2 t (idleAt1_2 t (fun h => by have := (hcond1_1 t).mp h; omega)) (noFlush1_2 t (fun h => by have := (hcond1_1 t).mp h; omega))]
    rw [outsAt1_A V c t h0]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => by have := (hcond1_1 t).mp h; omega) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _)
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => by have := (hcond1_1 t).mp h; omega) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _)
          iexact Hr
        iexact Hg
      isplitl [Ho]; · iexact Ho
      isplitl [H0]; · iexact H0
      isplitl [H1]; · iexact H1
      iexists _; iexact H2

  · by_cases h7 : t.val % 8 = 7
    ·
      rw [show (dat1 V c).leavesExact 2 t = owns (c : Thread nD τ) (ms1_2 t) fullShare ((dat1 V c).after 2 t) from by
        unfold Dat.leavesExact; rw [liveAt1_2 t ((hcond1_1 t).mpr h7)], after1_2]
      rw [outsAt1_C V c t h0 h7]
      unfold out1_C_2 sout1_C_0; (try dsimp only)
      have hz : t.val ≠ 0 := by omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h7) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)

    ·
      rw [Dat.leavesExact_idle (dat1 V c) 2 t (idleAt1_2 t (fun h => by have := (hcond1_1 t).mp h; omega)) (noFlush1_2 t (fun h => by have := (hcond1_1 t).mp h; omega))]
      rw [outsAt1_B V c t h0 h7]
      unfold sout1_B_0; (try dsimp only)
      have hz : t.val ≠ 0 := by omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h7 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _)
            iexact Hr
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's form back: the running minimum's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hr⟩, Hg⟩
  isplitl [HS0 Hr]
  · isplitl [HS0]
    · iexists _; iexact HS0
    iexact Hr
  iexact Hg

end Region

end Cert.KernelIdeal.Hand

end
-- ==== Proof.KI.Value1.lean ====
/-
  The value of call 1's output array.

  The second call runs the same body over the same grid with the two clouds exchanged: its query window reads the
  second argument and its key window the first. Each case of the body leaves the kernel's lowering step in the running
  minimum's buffer and, at the last key block, that result with a unit axis in front in the output block's buffer; by
  induction along the grid the running minimum's buffer holds the running minimum of the point's cloud and query block
  after the key blocks up to the point's; the blocks written back at the last key block are the blocks of the array of
  least squared distances from the second argument's points to the first argument's cloud, and they cover the output
  array.
-/
import proofs.«108210_j36782099923388_2_alg».proof.Proof.KI.Reg1
import proofs.«108210_j36782099923388_2_alg».proof.Proof.KI.Value0
import proofs.«108210_j36782099923388_2_alg».proof.Proof.Tile
import proofs.«108210_j36782099923388_2_alg».proof.Proof.Blocks
import Idealize.ShloMosaic.Lib.Pipeline.Value
import Idealize.ShloMosaic.Lib.Tactic

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-! ## What each case leaves, as the kernel's named values -/

/-- First key block: the running minimum is reset to +∞ and lowered by this block's distances. -/
theorem sout1A_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : cond1_0 i) (hc1 : ¬cond1_1 i)
    (x0 x1 : Vec F S1x1024x3 .f32) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero hz2]
  simp only [View.readAt_eq_ld, harg3.read_unread, harg4.read_unread, View.ld_unit_zero (S := S1x1024x3) hz3,
    View.readCov_unit_zero (S := S1024x1) _ hz2]

/-- A middle key block: the running minimum is lowered by this block's distances. -/
theorem sout1B_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : ¬cond1_1 i)
    (x0 x1 : Vec F S1x1024x3 .f32) (xs0 : Vec F S1024x1 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero hz2]
  simp only [View.readAt_eq_ld, harg3.read_unread, harg4.read_unread, harg6.read_unread,
    View.ld_unit_zero (S := S1x1024x3) hz3, View.ld_unit_zero (S := S1024x1) hz2]

/-- The last key block: the running minimum is lowered by this block's distances. -/
theorem sout1C_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) :
    sout1_C_0 c i arg3 harg3 arg4 harg4 arg5 harg5 arg6 harg6 hc0 hc1 x0 x1 xs0 = k1_pay2 x0 x1 xs0 := by
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  rw [View.canon_unit_zero hz2]
  simp only [View.readAt_eq_ld, harg3.read_unread, harg4.read_unread, harg6.read_unread,
    View.ld_unit_zero (S := S1x1024x3) hz3, View.ld_unit_zero (S := S1024x1) hz2]

/-- The last key block: the output block takes the running minimum just stored, a unit axis put in front. -/
theorem out1C_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole) (hc0 : ¬cond1_0 i) (hc1 : cond1_1 i)
    (x0 x1 : Vec F S1x1024x3 .f32) (xs0 : Vec F S1024x1 .f32) :
    out1_C_2 c i arg3 harg3 arg4 harg4 arg5 harg5 arg6 harg6 hc0 hc1 x0 x1 xs0 = k1_pay3 (k1_pay2 x0 x1 xs0) := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero hz3]
  simp only [View.readAt_eq_ld, harg3.read_unread, harg4.read_unread, harg6.read_unread,
    View.ld_unit_zero (S := S1x1024x3) hz3, View.ld_unit_zero (S := S1024x1) hz2,
    View.readCov_unit_zero (S := S1024x1) _ hz2]

/-! ## The running minimum after every point -/

section Region
variable (V : (c : Dev nD) → (b : Ref sig .tc) → Buf (Elt Ideal) ((c : Thread nD τ).loc b))

/-- The query cloud and the key cloud of this call, as the call finds them. -/
abbrev qCloud1 (c : Dev nD) : Cloud := V c main_arg1
abbrev kCloud1 (c : Dev nD) : Cloud := V c main_arg0

theorem cloudAt_eq1 (t : Fin cfg1.N) : (⟨t.val / 64, Blocks.cloud_lt1 t⟩ : Fin 4) = cloudAt t.val :=
  Fin.ext (Nat.mod_eq_of_lt (Blocks.cloud_lt1 t)).symm

/-- The query window's block at a point is the point's query block of the query cloud. -/
theorem iblk1_q (c : Dev nD) (t : Fin cfg1.N) :
    iblk1 V c 0 t = Tile.blk (qCloud1 V c) (cloudAt t.val) (t.val / 8 % 8) :=
  (Blocks.blk1_q (qCloud1 V c) t).trans (congrArg (fun b => Tile.blk (qCloud1 V c) b (t.val / 8 % 8)) (cloudAt_eq1 t))

/-- The key window's block at a point is the point's key block of the key cloud. -/
theorem iblk1_k (c : Dev nD) (t : Fin cfg1.N) :
    iblk1 V c 1 t = Tile.blk (kCloud1 V c) (cloudAt t.val) (t.val % 8) :=
  (Blocks.blk1_k (kCloud1 V c) t).trans (congrArg (fun b => Tile.blk (kCloud1 V c) b (t.val % 8)) (cloudAt_eq1 t))

/-- One more key block seen: the running minimum of the next position in the same row of the grid. -/
theorem scr1_step (Q Kc : Cloud) (b b' : Fin 4) (i i' k k' : ℕ) (hb : b' = b) (hi : i' = i) (hk : k = k' + 1) :
    k1_pay2 (F := Ideal) (Tile.blk Q b i) (Tile.blk Kc b k) (Tile.scr1 Q Kc b' i' k') = Tile.scr1 Q Kc b i k := by
  subst hb hi hk; rfl

/-- After a point the running minimum's buffer holds the running minimum of the point's cloud and query block after
    the key blocks up to the point's. -/
theorem outs1_snd_aux (c : Dev nD) : ∀ (n : ℕ) (t : Fin cfg1.N), t.val = n →
    (outsAt1 V c t.val t.isLt).2
      = Tile.scr1 (qCloud1 V c) (kCloud1 V c) (cloudAt t.val) (t.val / 8 % 8) (t.val % 8) := by
  intro n
  induction n using Nat.strong_induction_on with
  | _ n ih =>
    intro t ht
    by_cases h0 : t.val % 8 = 0
    · rw [outsAt1_A V c t h0]
      dsimp only
      rw [sout1A_eq (F := Ideal), iblk1_q V c t, iblk1_k V c t, h0]
      rfl
    · have hprev : (outsAt1 V c (t.val - 1) (Nat.lt_of_le_of_lt (Nat.sub_le _ _) t.isLt)).2
          = Tile.scr1 (qCloud1 V c) (kCloud1 V c) (cloudAt (t.val - 1)) ((t.val - 1) / 8 % 8) ((t.val - 1) % 8) :=
        ih (t.val - 1) (by omega) ⟨t.val - 1, Nat.lt_of_le_of_lt (Nat.sub_le _ _) t.isLt⟩ rfl
      have hb : cloudAt (t.val - 1) = cloudAt t.val := Fin.ext (by show (t.val - 1) / 64 % 4 = t.val / 64 % 4; omega)
      have hi : (t.val - 1) / 8 % 8 = t.val / 8 % 8 := by omega
      have hk : t.val % 8 = (t.val - 1) % 8 + 1 := by omega
      by_cases h7 : t.val % 8 = 7
      · rw [outsAt1_C V c t h0 h7]
        dsimp only
        rw [sout1C_eq (F := Ideal), iblk1_q V c t, iblk1_k V c t, hprev]
        exact scr1_step _ _ _ _ _ _ _ _ hb hi hk
      · rw [outsAt1_B V c t h0 h7]
        dsimp only
        rw [sout1B_eq (F := Ideal), iblk1_q V c t, iblk1_k V c t, hprev]
        exact scr1_step _ _ _ _ _ _ _ _ hb hi hk

theorem outs1_snd (c : Dev nD) (t : Fin cfg1.N) :
    (outsAt1 V c t.val t.isLt).2
      = Tile.scr1 (qCloud1 V c) (kCloud1 V c) (cloudAt t.val) (t.val / 8 % 8) (t.val % 8) :=
  outs1_snd_aux V c t.val t rfl

/-- At a point of the last key block the output block's buffer holds the final running minimum, a unit axis in front. -/
theorem outs1_fst (c : Dev nD) (t : Fin cfg1.N) (h7 : t.val % 8 = 7) :
    (outsAt1 V c t.val t.isLt).1
      = k1_pay3 (F := Ideal) (Tile.scr1 (qCloud1 V c) (kCloud1 V c) (cloudAt t.val) (t.val / 8 % 8) 7) := by
  have h0 : ¬t.val % 8 = 0 := by omega
  have e2 := outs1_snd V c t
  rw [outsAt1_C V c t h0 h7] at e2 ⊢
  dsimp only at e2 ⊢
  rw [sout1C_eq (F := Ideal)] at e2
  rw [out1C_eq (F := Ideal), e2, h7]

/-! ## The output array after the call -/

/-- What a point of the last key block writes back is its block of the array of least squared distances. -/
theorem flushed1_eq (c : Dev nD) (t : Fin cfg1.N) (hf : (cfg1.win 2).flush t = true) :
    (dat1 V c).flushed 2 t
      = ((cfg1.win 2).blk t).view.read (Elt Ideal) (Blocks.nearestArr (qCloud1 V c) (kCloud1 V c)) := by
  have h7 : t.val % 8 = 7 := (flush1_2 t).mp hf
  show (cfg1.win 2).cut (grid1.coords t) ((dat1 V c).after 2 t) = _
  rw [after1_2, outs1_fst V c t h7, ← cloudAt_eq1 t]
  exact Blocks.out1_blk (qCloud1 V c) (kCloud1 V c) t

/-- After the call the output array holds, for every point of the query cloud, the least squared distance to the key
    cloud. -/
theorem final1 (c : Dev nD) :
    (dat1 V c).arrAt 2 cfg1.N = Blocks.nearestArr (V c main_arg1) (V c main_arg0) :=
  (dat1 V c).arrAt_eq_of_cover 2 (Blocks.nearestArr (qCloud1 V c) (kCloud1 V c)) (flushed1_eq V c) Blocks.cover1

end Region

end Cert.KernelIdeal.Hand

end
-- ==== Proof.KI.Main.lean ====
/-
  The whole program as a run of segments — call 0, the reshape of its output, call 1, the reshape of its output and the
  averaging tail —, with the contents of every unscoped buffer named at each boundary: a call replaces its output
  array by what its write-backs leave, a host stretch applies its operations. Every weakly fair execution terminates
  with each unscoped buffer at the last boundary's contents; in particular the three arguments end as launched.
-/
import proofs.«108210_j36782099923388_2_alg».proof.Proof.KI.Reg0
import proofs.«108210_j36782099923388_2_alg».proof.Proof.KI.Reg1
import proofs.«108210_j36782099923388_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After call 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the reshape of call 0's output. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After call 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the program's end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- Call 0 as a segment of the program: entered with every unscoped buffer at the contents before it, left with the
    output array at what the write-backs leave and every other buffer as entered. The generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with the
    output array at what the write-backs leave and every other buffer as entered. The generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W4_of (c : Dev nD) (r : Ref sig .tc) (h : r ∉ hostOps2_W) : W4 m c (Proc.devRef .tc r) = W3 m c (Proc.devRef .tc r) :=
  StableHlo.after_of_writes_sub hostOps2 _ hostOps2_writes h

/-- The first cloud's array is an input window of both calls and no host operation writes it. -/
theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  (W2_of m c main_arg0 (by decide)).trans (W1_main_arg0 m c)
theorem W2_main_arg1 (c : Dev nD) : W2 m c (Proc.devRef .tc main_arg1) = m ((c : Thread nD τ).loc main_arg1) :=
  (W2_of m c main_arg1 (by decide)).trans (W1_main_arg1 m c)
theorem W3_main_arg1 (c : Dev nD) : W3 m c (Proc.devRef .tc main_arg1) = m ((c : Thread nD τ).loc main_arg1) :=
  (W3_arr m c 0).trans (((dat1 (V2 m) c).arrAt_in 0 rfl _).trans ((A_eq1 (V2 m) c 0).trans (W2_main_arg1 m c)))
theorem W3_main_arg0 (c : Dev nD) : W3 m c (Proc.devRef .tc main_arg0) = m ((c : Thread nD τ).loc main_arg0) :=
  (W3_arr m c 1).trans (((dat1 (V2 m) c).arrAt_in 1 rfl _).trans ((A_eq1 (V2 m) c 1).trans (W2_main_arg0 m c)))
theorem W3_main_arg2 (c : Dev nD) : W3 m c (Proc.devRef .tc main_arg2) = m ((c : Thread nD τ).loc main_arg2) :=
  (W3_of_ne m c main_arg2 (by decide)).trans ((W2_of m c main_arg2 (by decide)).trans (W1_of_ne m c main_arg2 (by decide)))
theorem W4_main_arg0 (c : Dev nD) : W4 m c (Proc.devRef .tc main_arg0) = m ((c : Thread nD τ).loc main_arg0) :=
  (W4_of m c main_arg0 (by decide)).trans (W3_main_arg0 m c)
theorem W4_main_arg1 (c : Dev nD) : W4 m c (Proc.devRef .tc main_arg1) = m ((c : Thread nD τ).loc main_arg1) :=
  (W4_of m c main_arg1 (by decide)).trans (W3_main_arg1 m c)
theorem W4_main_arg2 (c : Dev nD) : W4 m c (Proc.devRef .tc main_arg2) = m ((c : Thread nD τ).loc main_arg2) :=
  (W4_of m c main_arg2 (by decide)).trans (W3_main_arg2 m c)

/-- The frame: every weakly fair execution terminates, nothing faulting, with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c)⟩) (run_all m ρ)

end Cert.KernelIdeal.Hand

end
-- ==== Proof.Tail.lean ====
/-
  The tail both programs share after the two nearest-point arrays. For each direction: per cloud the mean over its
  8192 points, then the mean over the four clouds. The two directions' means are added; the one-element third
  argument is averaged; and the result is the first plus one times the second. The constants stay the float words the
  programs print and the arithmetic is never opened: the tail is carried as named functions of the two arrays and of
  the third argument.
-/
import Idealize.ShloMosaic.PureOps.Ideal
import Idealize.ShloMosaic.Lib.ValueIdx
import proofs.«108210_j36782099923388_2_alg».proof.Proof.Spec

noncomputable section

namespace Cert.Spec

open Idealize.ShloMosaic Idealize.ShloMosaic.ValueIdx

/-- The least squared distances from each point of `x` to the cloud `y`, as a `[4, 8192]` array. -/
def nearArr (x y : Cloud) : (⟨2, ![4, 8192]⟩ : Shape).Idx → EReal := fun j => nearest x y (j 0) (j 1)

theorem nearArr_ix2 (x y : Cloud) (b : Fin 4) (n : Fin 8192) : nearArr x y (ix2 b n) = nearest x y b n := rfl

namespace Tail

/-! The shape relations the tail's operations need, over the literal shapes. -/

theorem h41 : (⟨2, ![4, 8192]⟩ : Shape).ReducesTo [1] ⟨1, ![4]⟩ := by decide
theorem h40 : (⟨1, ![4]⟩ : Shape).ReducesTo [0] ⟨0, ![]⟩ := by decide
theorem h10 : (⟨1, ![1]⟩ : Shape).ReducesTo [0] ⟨0, ![]⟩ := by decide
theorem hb : (⟨0, ![]⟩ : Shape).BroadcastsInDim ⟨1, ![4]⟩ (![] : Fin 0 → Fin 1) := by decide
theorem h0 : 0 < (⟨0, ![]⟩ : Shape).numel := by decide

/-- One direction: per cloud the sum over its points divided by the broadcast word 0x46000000, then the sum over the
    clouds divided by the word 0x40800000. -/
def mean2 (a : (⟨2, ![4, 8192]⟩ : Shape).Idx → EReal) : (⟨0, ![]⟩ : Shape).Idx → EReal :=
  Host.divf (F := Ideal) (φ := .f32)
    (Host.reduceAdd (F := Ideal) (φ := .f32)
      (Host.divf (F := Ideal) (φ := .f32)
        (Host.reduceAdd (F := Ideal) (φ := .f32) a (constant (F := Ideal) ⟨0, ![]⟩ .f32 0x00000000#32) h41 h0)
        (broadcastInDim ⟨1, ![4]⟩ ![] hb (constant (F := Ideal) ⟨0, ![]⟩ .f32 0x46000000#32)))
      (constant (F := Ideal) ⟨0, ![]⟩ .f32 0x00000000#32) h40 h0)
    (constant (F := Ideal) ⟨0, ![]⟩ .f32 0x40800000#32)

/-- The two directions' means added. -/
def dist (a b : (⟨2, ![4, 8192]⟩ : Shape).Idx → EReal) : (⟨0, ![]⟩ : Shape).Idx → EReal :=
  addf (F := Ideal) (φ := .f32) (mean2 a) (mean2 b)

/-- The mean of the one-element third argument: its sum divided by the word 0x3F800000. -/
def rate (x2 : (⟨1, ![1]⟩ : Shape).Idx → EReal) : (⟨0, ![]⟩ : Shape).Idx → EReal :=
  Host.divf (F := Ideal) (φ := .f32)
    (Host.reduceAdd (F := Ideal) (φ := .f32) x2 (constant (F := Ideal) ⟨0, ![]⟩ .f32 0x00000000#32) h10 h0)
    (constant (F := Ideal) ⟨0, ![]⟩ .f32 0x3F800000#32)

/-- The first plus the word 0x3F800000 times the second. -/
def loss (a b : (⟨2, ![4, 8192]⟩ : Shape).Idx → EReal) (x2 : (⟨1, ![1]⟩ : Shape).Idx → EReal) :
    (⟨0, ![]⟩ : Shape).Idx → EReal :=
  addf (F := Ideal) (φ := .f32) (dist a b)
    (mulf (F := Ideal) (φ := .f32) (constant (F := Ideal) ⟨0, ![]⟩ .f32 0x3F800000#32) (rate x2))

end Tail

end Cert.Spec

end
-- ==== Proof.KerTail.lean ====
/-
  The kernel program's host operations read back. Between its two calls one reshape flattens the first call's
  `[4, 8192, 1]` result to `[4, 8192]`. After the second call a reshape flattens its result likewise, and the
  remaining operations are the shared tail applied to the two flattened arrays and to the third argument: the loss,
  the distance term and the rate term are the tail's named functions, by unfolding alone.
-/
import proofs.«108210_j36782099923388_2_alg».proof.Proof.Gen.KernelIdeal.Launch
import Idealize.ShloMosaic.Lib.StableHlo.Run
import proofs.«108210_j36782099923388_2_alg».proof.Proof.Tail

noncomputable section

namespace Cert.KernelIdeal.Tail2

open Cert.KernelIdeal Cert.KernelIdeal.Gen Cert.Spec Idealize.ShloMosaic Idealize.ShloMosaic.TcCoe
  Idealize.ShloMosaic.StableHlo

/-- After the one operation between the calls, the flattened array is the cast of the first call's result. -/
theorem after1_v1 (W : Valuation τ sig (Elt Ideal)) :
    StableHlo.after (hostOps1 (F := Ideal)) W (Proc.devRef .tc main_v1)
      = shapeCast S4x8192 (W (Proc.devRef .tc main_v0)) shapeCasts_S4x8192x1_S4x8192 := by
  dsimp only [hostOps1]
  after_results
  rfl

/-- After the operations that follow the second call, the loss is the tail's, at the first flattened array, the cast
    of the second call's result, and the third argument. -/
theorem after2_v18 (W : Valuation τ sig (Elt Ideal)) :
    StableHlo.after (hostOps2 (F := Ideal)) W (Proc.devRef .tc main_v18)
      = Tail.loss (W (Proc.devRef .tc main_v1))
          (shapeCast S4x8192 (W (Proc.devRef .tc main_v2)) shapeCasts_S4x8192x1_S4x8192)
          (W (Proc.devRef .tc main_arg2)) := by
  dsimp only [hostOps2]
  after_results_simp
  rfl

/-- The distance term is the tail's. -/
theorem after2_v14 (W : Valuation τ sig (Elt Ideal)) :
    StableHlo.after (hostOps2 (F := Ideal)) W (Proc.devRef .tc main_v14)
      = Tail.dist (W (Proc.devRef .tc main_v1))
          (shapeCast S4x8192 (W (Proc.devRef .tc main_v2)) shapeCasts_S4x8192x1_S4x8192) := by
  dsimp only [hostOps2]
  after_results_simp
  rfl

/-- The rate term is the tail's. -/
theorem after2_v16 (W : Valuation τ sig (Elt Ideal)) :
    StableHlo.after (hostOps2 (F := Ideal)) W (Proc.devRef .tc main_v16)
      = Tail.rate (W (Proc.devRef .tc main_arg2)) := by
  dsimp only [hostOps2]
  after_results_simp
  rfl

end Cert.KernelIdeal.Tail2

end
-- ==== Proof.CastLast.lean ====
/-
  A stack of column vectors flattened: a `[4, 8192, 1]` array cast to `[4, 8192]` reads, at `(b, n)`, the operand at
  `(b, n, 0)` — the two indices have the same row-major position.
-/
import Idealize.ShloMosaic.Lib.ValueLayout
import Idealize.ShloMosaic.PureOps.Ideal

namespace Cert.Spec.Cast

open Idealize.ShloMosaic Idealize.ShloMosaic.ValueIdx

/-- The `[4, 8192, 1] → [4, 8192]` cast at an index: entry `(b, n)` is entry `(b, n, 0)` of the operand. -/
theorem cast_apply (x : (⟨3, ![4, 8192, 1]⟩ : Shape).Idx → EReal)
    (h : (⟨3, ![4, 8192, 1]⟩ : Shape).ShapeCasts ⟨2, ![4, 8192]⟩) (b : Fin 4) (n : Fin 8192) :
    shapeCast ⟨2, ![4, 8192]⟩ x h (ix2 b n) = x (ix3 b n 0) :=
  shapeCast_apply x h _ _ (by
    rw [Shape.rowMajor_val_three, Shape.rowMajor_val_two]
    show (b.val * 8192 + n.val) * 1 + 0 = b.val * 8192 + n.val
    rw [Nat.mul_one, Nat.add_zero])

end Cert.Spec.Cast
-- ==== Proof.KI.Results.lean ====
/-
  The kernel program's results read off its run. The last host stretch is the shared tail applied to the first call's
  output flattened (written between the calls), the second call's output flattened, and the third argument. Each
  call's output array is the array of least squared distances of its two clouds; flattened from [4, 8192, 1] to
  [4, 8192] it is the same array read at (b, n). So the loss, the distance term and the rate term are the tail's
  named functions of the argument clouds' nearest-point arrays and of the third argument, and every weakly fair
  execution ends with the three results at those terms, the arguments unchanged.
-/
import proofs.«108210_j36782099923388_2_alg».proof.Proof.KI.Main
import proofs.«108210_j36782099923388_2_alg».proof.Proof.KerTail
import proofs.«108210_j36782099923388_2_alg».proof.Proof.CastLast
import proofs.«108210_j36782099923388_2_alg».proof.Proof.Blocks
import proofs.«108210_j36782099923388_2_alg».proof.Proof.Tail

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Cert.KernelIdeal.Blocks (nearestArr)

/-- The first call's output array is the array of least squared distances from the first cloud to the second. -/
abbrev Final0 : Prop :=
  ∀ (V : (c : Dev nD) → (b : Ref sig .tc) → Buf (Elt Ideal) ((c : Thread nD τ).loc b)) (c : Dev nD),
    (dat0 V c).arrAt 2 cfg0.N = nearestArr (V c main_arg0) (V c main_arg1)

/-- The second call's output array is the array of least squared distances from the second cloud to the first. -/
abbrev Final1 : Prop :=
  ∀ (V : (c : Dev nD) → (b : Ref sig .tc) → Buf (Elt Ideal) ((c : Thread nD τ).loc b)) (c : Dev nD),
    (dat1 V c).arrAt 2 cfg1.N = nearestArr (V c main_arg1) (V c main_arg0)

/-- The [4, 8192, 1] array of least squared distances flattened to [4, 8192] is the same array read at (b, n). -/
theorem cast_nearestArr (Q K : Cloud) :
    shapeCast S4x8192 (nearestArr Q K) shapeCasts_S4x8192x1_S4x8192 = nearArr Q K :=
  funext fun j =>
    (congrArg (shapeCast S4x8192 (nearestArr Q K) shapeCasts_S4x8192x1_S4x8192) (eq_ix2 j)).trans
      (Cert.Spec.Cast.cast_apply (nearestArr Q K) shapeCasts_S4x8192x1_S4x8192 (j 0) (j 1))

/-- The tail's three functions respect equality of their arguments. -/
theorem loss_congr {a a' b b' : (⟨2, ![4, 8192]⟩ : Shape).Idx → EReal} {x x' : (⟨1, ![1]⟩ : Shape).Idx → EReal}
    (ha : a = a') (hb : b = b') (hx : x = x') : Tail.loss a b x = Tail.loss a' b' x' := by
  subst ha hb hx; rfl
theorem dist_congr {a a' b b' : (⟨2, ![4, 8192]⟩ : Shape).Idx → EReal}
    (ha : a = a') (hb : b = b') : Tail.dist a b = Tail.dist a' b' := by
  subst ha hb; rfl

section
variable (m : (ℓ : Loc nD τ sig) → Buf (Elt Ideal) ℓ)

/-- After the first call its output array holds the least squared distances from the first cloud to the second. -/
theorem W1_v0 (hfin0 : Final0) (c : Dev nD) :
    W1 m c (Proc.devRef .tc main_v0)
      = nearestArr (m ((c : Thread nD τ).loc main_arg0)) (m ((c : Thread nD τ).loc main_arg1)) :=
  (W1_arr m c 2).trans (hfin0 (V0 m) c)

/-- When the last host stretch starts, the first flattened array is the nearest-point array of the first cloud
    against the second: the second call does not touch it, and the reshape between the calls wrote it. -/
theorem W3_v1 (hfin0 : Final0) (c : Dev nD) :
    W3 m c (Proc.devRef .tc main_v1)
      = nearArr (m ((c : Thread nD τ).loc main_arg0)) (m ((c : Thread nD τ).loc main_arg1)) :=
  (W3_of_ne m c main_v1 (by decide)).trans
    ((Cert.KernelIdeal.Tail2.after1_v1 (W1 m c)).trans
      ((congrArg (fun x : S4x8192x1.Idx → EReal => shapeCast S4x8192 x shapeCasts_S4x8192x1_S4x8192)
          (W1_v0 m hfin0 c)).trans (cast_nearestArr _ _)))

/-- After the second call its output array holds the least squared distances from the second cloud to the first. -/
theorem W3_v2 (hfin1 : Final1) (c : Dev nD) :
    W3 m c (Proc.devRef .tc main_v2)
      = nearestArr (m ((c : Thread nD τ).loc main_arg1)) (m ((c : Thread nD τ).loc main_arg0)) :=
  (W3_arr m c 2).trans ((hfin1 (V2 m) c).trans (congrArg₂ nearestArr (W2_main_arg1 m c) (W2_main_arg0 m c)))

/-- Flattened, it is the nearest-point array of the second cloud against the first. -/
theorem W3_v2_cast (hfin1 : Final1) (c : Dev nD) :
    shapeCast S4x8192 (W3 m c (Proc.devRef .tc main_v2)) shapeCasts_S4x8192x1_S4x8192
      = nearArr (m ((c : Thread nD τ).loc main_arg1)) (m ((c : Thread nD τ).loc main_arg0)) :=
  (congrArg (fun x : S4x8192x1.Idx → EReal => shapeCast S4x8192 x shapeCasts_S4x8192x1_S4x8192)
      (W3_v2 m hfin1 c)).trans (cast_nearestArr _ _)

/-- The loss at the program's end. -/
theorem W4_v18 (hfin0 : Final0) (hfin1 : Final1) (c : Dev nD) :
    W4 m c (Proc.devRef .tc main_v18)
      = Tail.loss (nearArr (m ((c : Thread nD τ).loc main_arg0)) (m ((c : Thread nD τ).loc main_arg1)))
          (nearArr (m ((c : Thread nD τ).loc main_arg1)) (m ((c : Thread nD τ).loc main_arg0)))
          (m ((c : Thread nD τ).loc main_arg2)) :=
  (Cert.KernelIdeal.Tail2.after2_v18 (W3 m c)).trans
    (loss_congr (W3_v1 m hfin0 c) (W3_v2_cast m hfin1 c) (W3_main_arg2 m c))

/-- The distance term at the program's end. -/
theorem W4_v14 (hfin0 : Final0) (hfin1 : Final1) (c : Dev nD) :
    W4 m c (Proc.devRef .tc main_v14)
      = Tail.dist (nearArr (m ((c : Thread nD τ).loc main_arg0)) (m ((c : Thread nD τ).loc main_arg1)))
          (nearArr (m ((c : Thread nD τ).loc main_arg1)) (m ((c : Thread nD τ).loc main_arg0))) :=
  (Cert.KernelIdeal.Tail2.after2_v14 (W3 m c)).trans (dist_congr (W3_v1 m hfin0 c) (W3_v2_cast m hfin1 c))

/-- The rate term at the program's end. -/
theorem W4_v16 (c : Dev nD) :
    W4 m c (Proc.devRef .tc main_v16) = Tail.rate (m ((c : Thread nD τ).loc main_arg2)) :=
  (Cert.KernelIdeal.Tail2.after2_v16 (W3 m c)).trans (congrArg Tail.rate (W3_main_arg2 m c))

/-- On every device, from any memory with zero counters: every weakly fair execution of the kernel program terminates
    with its three results at the tail's terms of the arguments' nearest-point arrays, the arguments unchanged. -/
theorem kernel_run (hfin0 : Final0) (hfin1 : Final1) (ρ : Dev nD → PrngReg) :
    θ_run defs (onTc (τ := τ) (main (F := Ideal))) ⟨m, fun _ => 0, ρ⟩ fun r => ∀ c : Dev nD,
      r.2.mem ((c.tc : Thread nD τ).loc main_v18)
          = Tail.loss (nearArr (m ((c.tc : Thread nD τ).loc main_arg0)) (m ((c.tc : Thread nD τ).loc main_arg1)))
              (nearArr (m ((c.tc : Thread nD τ).loc main_arg1)) (m ((c.tc : Thread nD τ).loc main_arg0)))
              (m ((c.tc : Thread nD τ).loc main_arg2))
      ∧ r.2.mem ((c.tc : Thread nD τ).loc main_v14)
          = Tail.dist (nearArr (m ((c.tc : Thread nD τ).loc main_arg0)) (m ((c.tc : Thread nD τ).loc main_arg1)))
              (nearArr (m ((c.tc : Thread nD τ).loc main_arg1)) (m ((c.tc : Thread nD τ).loc main_arg0)))
      ∧ r.2.mem ((c.tc : Thread nD τ).loc main_v16) = Tail.rate (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c _ (mem_uc main_v18 (by decide))).trans (W4_v18 m hfin0 hfin1 c),
       (h c _ (mem_uc main_v14 (by decide))).trans (W4_v14 m hfin0 hfin1 c),
       (h c _ (mem_uc main_v16 (by decide))).trans (W4_v16 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)
    (run_all m ρ)

end

end Cert.KernelIdeal.Hand

end
-- ==== Proof.RefRead12.lean ====
/-
  The reference's squared-distance array read at an index: entry (b, n, m) is the squared distance, in the expanded
  form |x|² + |y|² − 2·⟨x, y⟩, between point n of the first cloud and point m of the second, in batch b. The two
  squared-norm arrays are sums over the three coordinates broadcast along one axis each; the inner products are a
  contraction over the coordinate axis.
-/
import proofs.«108210_j36782099923388_2_alg».proof.Proof.Gen.ReferenceIdeal.Read
import proofs.«108210_j36782099923388_2_alg».proof.Proof.Spec

noncomputable section

namespace Cert.ReferenceIdeal.RefRead

open Cert.ReferenceIdeal Cert.ReferenceIdeal.Read Cert.Spec Idealize.ShloMosaic Idealize.ShloMosaic.ValueIdx

/-- The first cloud's squared norms, broadcast along the last axis: entry (b, n, m) is |x₀(b, n)|². -/
theorem v7_apply (x0 : (⟨S4x8192x3, .f32⟩ : BufTy).Contents (Elt Ideal)) (b : Fin 4) (n m : Fin 8192) :
    val_main_v7 (F := Ideal) x0 (ix3 b n m) = sqnorm x0 b n := by
  rw [val_main_v7_apply, val_main_v5_apply, val_main_v1_apply, val_main_cst_apply]
  simp only [val_main_v0_apply, Ideal.ofBits_def, Ideal.mulf_def, Ideal.ofBits_zero_f32, zero_add]
  refine Finset.sum_congr rfl fun k _ => ?_
  have e : idx_main_v1 (idx_main_v5 (idx_main_v7 (ix3 b n m))) k = ix3 b n k :=
    funext fun a => Fin.ext (by match a with | ⟨0, _⟩ => rfl | ⟨1, _⟩ => rfl | ⟨2, _⟩ => rfl)
  rw [e]

/-- The second cloud's squared norms, broadcast along the middle axis: entry (b, n, m) is |x₁(b, m)|². -/
theorem v8_apply (x1 : (⟨S4x8192x3, .f32⟩ : BufTy).Contents (Elt Ideal)) (b : Fin 4) (n m : Fin 8192) :
    val_main_v8 (F := Ideal) x1 (ix3 b n m) = sqnorm x1 b m := by
  rw [val_main_v8_apply, val_main_v6_apply, val_main_v3_apply, val_main_cst_0_apply]
  simp only [val_main_v2_apply, Ideal.ofBits_def, Ideal.mulf_def, Ideal.ofBits_zero_f32, zero_add]
  refine Finset.sum_congr rfl fun k _ => ?_
  have e : idx_main_v3 (idx_main_v6 (idx_main_v8 (ix3 b n m))) k = ix3 b m k :=
    funext fun a => Fin.ext (by match a with | ⟨0, _⟩ => rfl | ⟨1, _⟩ => rfl | ⟨2, _⟩ => rfl)
  rw [e]

/-- The contraction over the coordinate axis: entry (b, n, m) is ⟨x₀(b, n), x₁(b, m)⟩. -/
theorem v4_apply (x0 x1 : (⟨S4x8192x3, .f32⟩ : BufTy).Contents (Elt Ideal)) (b : Fin 4) (n m : Fin 8192) :
    val_main_v4 (F := Ideal) x0 x1 (ix3 b n m) = inner x0 x1 b n m := by
  rw [val_main_v4_apply]
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The squared-distance array: entry (b, n, m) is the squared distance between x₀(b, n) and x₁(b, m). -/
theorem v12_apply (x0 x1 : (⟨S4x8192x3, .f32⟩ : BufTy).Contents (Elt Ideal)) (b : Fin 4) (n m : Fin 8192) :
    val_main_v12 (F := Ideal) x0 x1 (ix3 b n m) = sqdist x0 x1 b n m := by
  rw [val_main_v12_apply, val_main_v9_apply, val_main_v11_apply, val_main_v10_apply, val_main_cst_1_apply,
    v7_apply, v8_apply, v4_apply]
  rfl

end Cert.ReferenceIdeal.RefRead

end
-- ==== Proof.LibLift3.lean ====
/-
  The index a reduction over one axis of a rank-three array inserts, for the middle and the last axis: the kept
  coordinates stay where they are and the reduced coordinate goes back on its axis.
-/
import Idealize.ShloMosaic.Lib.ValueIdx
import Idealize.ShloMosaic.PureOps.Ideal.Laws

namespace Cert.Lift3

open Idealize.ShloMosaic Idealize.ShloMosaic.ValueIdx

/-- Reducing the middle axis away: entry `(p, q)` with coordinate `k` put back is `(p, k, q)`. -/
theorem lift_mid {a b d : ℕ} (h : (⟨3, ![a, b, d]⟩ : Shape).Reduces [1] (⟨2, ![a, d]⟩ : Shape)) (p : Fin a) (q : Fin d)
    (k : Fin ((⟨3, ![a, b, d]⟩ : Shape).size 1)) : h.lift (ix2 p q) k = ix3 p (⟨k.val, k.isLt⟩ : Fin b) q := by
  funext c; apply Fin.ext
  fin_cases c <;> rfl

/-- Reducing the last axis away: entry `(p, q)` with coordinate `k` put back is `(p, q, k)`. -/
theorem lift_last {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

end Cert.Lift3
-- ==== Proof.RefRead.lean ====
/-
  The reference's two nearest-point stages read at an index. The minimum of the squared-distance array over its last
  axis is, at (b, n), the least squared distance from point n of the first cloud to a point of the second; the minimum
  over its middle axis is, at (b, m), the least squared distance from point m of the second cloud to a point of the
  first. A minimum taken from +∞ over every coordinate of an axis is the infimum over that axis: a value lies below
  either exactly when it lies below every entry. The squared distance is symmetric in its two points, by the
  commutativity of + and · alone.
-/
import proofs.«108210_j36782099923388_2_alg».proof.Proof.RefRead12
import proofs.«108210_j36782099923388_2_alg».proof.Proof.LibMin
import proofs.«108210_j36782099923388_2_alg».proof.Proof.LibLift3

noncomputable section

namespace Cert.ReferenceIdeal.RefRead

open Cert.ReferenceIdeal Cert.ReferenceIdeal.Gen Cert.ReferenceIdeal.Read Cert.Spec Idealize.ShloMosaic Idealize.ShloMosaic.ValueIdx

/-- The float word 0x7F800000 is +∞. -/
theorem ofBits_posInf_f32 : Ideal.ofBits .f32 0x7F800000#32 = ⊤ := by simp [Ideal.ofBits, Ideal.ieee]

/-- A minimum taken from +∞ over every index of a finite family is the family's infimum. -/
theorem fold_min_top_eq_iInf {n : ℕ} (f : Fin n → EReal) :
    (Finset.univ : Finset (Fin n)).fold min ⊤ f = ⨅ k, f k := by
  refine eq_of_forall_le_iff fun z => ?_
  rw [Finset.le_fold_min, le_iInf_iff]
  exact ⟨fun h k => h.2 k (Finset.mem_univ _), fun h => ⟨le_top, fun k _ => h k⟩⟩

/-- The squared distance is symmetric in its two points. -/
theorem sqdist_symm (x y : Cloud) (b : Fin 4) (n m : Fin 8192) : sqdist y x b m n = sqdist x y b n m := by
  have h1 : inner y x b m n = inner x y b n m := Finset.sum_congr rfl fun d _ => mul_comm _ _
  unfold sqdist
  rw [h1, add_comm (sqnorm y b m)]

theorem reduces_last : S4x8192x8192.Reduces [2] S4x8192 := by decide
theorem reduces_mid : S4x8192x8192.Reduces [1] S4x8192 := by decide

/-- The minimum over the last axis: entry (b, n) is the least squared distance from x₀(b, n) to a point of x₁. -/
theorem v13_apply (x0 x1 : (⟨S4x8192x3, .f32⟩ : BufTy).Contents (Elt Ideal)) (b : Fin 4) (n : Fin 8192) :
    val_main_v13 (F := Ideal) x0 x1 (ix2 b n) = nearest x0 x1 b n := by
  unfold val_main_v13
  refine (Cert.Nearest.MinRead.hostReduce_min_single (val_main_v12 (F := Ideal) x0 x1) (val_main_cst_2 (F := Ideal))
    reducesTo_S4x8192x8192_S4x8192_d2 reduces_last h_S_ (ix2 b n)).trans ?_
  rw [val_main_cst_2_apply, Ideal.ofBits_def, ofBits_posInf_f32]
  refine (fold_min_top_eq_iInf (n := 8192) _).trans ?_
  refine iInf_congr fun k => ?_
  show val_main_v12 (F := Ideal) x0 x1 (reduces_last.lift (ix2 b n) k) = sqdist x0 x1 b n k
  rw [Cert.Lift3.lift_last reduces_last b n k]
  exact v12_apply x0 x1 b n k

/-- The minimum over the middle axis: entry (b, m) is the least squared distance from x₁(b, m) to a point of x₀. -/
theorem v17_apply (x0 x1 : (⟨S4x8192x3, .f32⟩ : BufTy).Contents (Elt Ideal)) (b : Fin 4) (m : Fin 8192) :
    val_main_v17 (F := Ideal) x0 x1 (ix2 b m) = nearest x1 x0 b m := by
  unfold val_main_v17
  refine (Cert.Nearest.MinRead.hostReduce_min_single (val_main_v12 (F := Ideal) x0 x1) (val_main_cst_5 (F := Ideal))
    reducesTo_S4x8192x8192_S4x8192_d1 reduces_mid h_S_ (ix2 b m)).trans ?_
  rw [val_main_cst_5_apply, Ideal.ofBits_def, ofBits_posInf_f32]
  refine (fold_min_top_eq_iInf (n := 8192) _).trans ?_
  refine iInf_congr fun k => ?_
  show val_main_v12 (F := Ideal) x0 x1 (reduces_mid.lift (ix2 b m) k) = sqdist x1 x0 b m k
  rw [Cert.Lift3.lift_mid reduces_mid b m k]
  exact (v12_apply x0 x1 b k m).trans (sqdist_symm x1 x0 b m k)

end Cert.ReferenceIdeal.RefRead

end
-- ==== Proof.RefTail.lean ====
/-
  The reference's run with its results named: the loss is the shared tail applied to the two nearest-point arrays of
  the argument clouds and to the third argument; likewise the distance term and the rate term. The nearest-point
  stages are the arrays of least squared distances, index by index; everything after them is the tail, by unfolding.
-/
import proofs.«108210_j36782099923388_2_alg».proof.Proof.RefRead
import proofs.«108210_j36782099923388_2_alg».proof.Proof.Tail
import proofs.«108210_j36782099923388_2_alg».proof.Proof.Gen.ReferenceIdeal.Run
import proofs.«108210_j36782099923388_2_alg».proof.Proof.Gen.ReferenceIdeal.Read

noncomputable section

namespace Cert.ReferenceIdeal.RefRead

open Cert.ReferenceIdeal Cert.ReferenceIdeal.Gen Cert.ReferenceIdeal.Read Cert.Spec Idealize.ShloMosaic
  Idealize.ShloMosaic.TcCoe Idealize.SL.Sem Idealize.ShloMosaic.StableHlo Idealize.ShloMosaic.ValueIdx

/-- The minimum over the last axis is the array of least squared distances from the first cloud to the second. -/
theorem v13_eq (x0 x1 : (⟨S4x8192x3, .f32⟩ : BufTy).Contents (Elt Ideal)) :
    val_main_v13 (F := Ideal) x0 x1 = nearArr x0 x1 :=
  funext fun j => (congrArg (val_main_v13 (F := Ideal) x0 x1) (eq_ix2 j)).trans (v13_apply x0 x1 (j 0) (j 1))

/-- The minimum over the middle axis is the array of least squared distances from the second cloud to the first. -/
theorem v17_eq (x0 x1 : (⟨S4x8192x3, .f32⟩ : BufTy).Contents (Elt Ideal)) :
    val_main_v17 (F := Ideal) x0 x1 = nearArr x1 x0 :=
  funext fun j => (congrArg (val_main_v17 (F := Ideal) x0 x1) (eq_ix2 j)).trans (v17_apply x0 x1 (j 0) (j 1))

/-- The distance term is the tail's, at the two nearest-point arrays. -/
theorem v25_tail (x0 x1 : (⟨S4x8192x3, .f32⟩ : BufTy).Contents (Elt Ideal)) :
    val_main_v25 (F := Ideal) x0 x1 = Tail.dist (nearArr x0 x1) (nearArr x1 x0) := by
  rw [← v13_eq, ← v17_eq]; rfl

/-- The rate term is the tail's. -/
theorem v27_tail (x2 : (⟨S1, .f32⟩ : BufTy).Contents (Elt Ideal)) :
    val_main_v27 (F := Ideal) x2 = Tail.rate x2 := rfl

/-- The loss is the tail's, at the two nearest-point arrays and the third argument. -/
theorem v29_tail (x0 x1 : (⟨S4x8192x3, .f32⟩ : BufTy).Contents (Elt Ideal)) (x2 : (⟨S1, .f32⟩ : BufTy).Contents (Elt Ideal)) :
    val_main_v29 (F := Ideal) x0 x1 x2 = Tail.loss (nearArr x0 x1) (nearArr x1 x0) x2 := by
  rw [← v13_eq, ← v17_eq]; rfl

/-- On every device, from any memory with zero counters: every weakly fair execution of the reference terminates with
    its three results at the tail's terms of the arguments' nearest-point arrays, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = Tail.loss (nearArr (m ((c.tc : Thread nD τ).loc main_arg0)) (m ((c.tc : Thread nD τ).loc main_arg1)))
              (nearArr (m ((c.tc : Thread nD τ).loc main_arg1)) (m ((c.tc : Thread nD τ).loc main_arg0)))
              (m ((c.tc : Thread nD τ).loc main_arg2))
      ∧ r.2.mem ((c.tc : Thread nD τ).loc main_v25)
          = Tail.dist (nearArr (m ((c.tc : Thread nD τ).loc main_arg0)) (m ((c.tc : Thread nD τ).loc main_arg1)))
              (nearArr (m ((c.tc : Thread nD τ).loc main_arg1)) (m ((c.tc : Thread nD τ).loc main_arg0)))
      ∧ r.2.mem ((c.tc : Thread nD τ).loc main_v27) = Tail.rate (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v29_eq (F := Ideal) _ _ _).trans (v29_tail _ _ _)),
       (h c).2.1.trans ((val_main_v25_eq (F := Ideal) _ _).trans (v25_tail _ _)),
       (h c).2.2.1.trans ((val_main_v27_eq (F := Ideal) _).trans (v27_tail _)),
       (h c).2.2.2⟩)
    (Cert.ReferenceIdeal.Value.run (F := Ideal) m ρ)

end Cert.ReferenceIdeal.RefRead

end
-- ==== Proof.Claims.lean ====
/-
  The closing claims. At the ideal values both programs end with their three results at the shared tail's terms of
  the argument clouds' nearest-point arrays and of the third argument; from memories that agree on the arguments these
  are the same values. The reference's arguments end unchanged, and so do the kernel program's.
-/
import proofs.«108210_j36782099923388_2_alg».proof.Defs
import proofs.«108210_j36782099923388_2_alg».proof.Proof.Gen.Kernel
import proofs.«108210_j36782099923388_2_alg».proof.Proof.Gen.KernelIdeal
import proofs.«108210_j36782099923388_2_alg».proof.Proof.Gen.KernelIdeal.Skeleton
import proofs.«108210_j36782099923388_2_alg».proof.Proof.Gen.KernelIdeal.Launch
import proofs.«108210_j36782099923388_2_alg».proof.Proof.Gen.KernelIdeal.Regions
import proofs.«108210_j36782099923388_2_alg».proof.Proof.Gen.KernelIdeal.Points
import proofs.«108210_j36782099923388_2_alg».proof.Proof.Gen.ReferenceIdeal
import proofs.«108210_j36782099923388_2_alg».proof.Proof.Gen.Pre_finite_inputs
import proofs.«108210_j36782099923388_2_alg».proof.Proof.Gen.ReferenceIdeal.Run
import proofs.«108210_j36782099923388_2_alg».proof.Proof.Gen.ReferenceIdeal.Read
import proofs.«108210_j36782099923388_2_alg».proof.Proof.KI.Results
import proofs.«108210_j36782099923388_2_alg».proof.Proof.RefTail
import Idealize.ShloMosaic.Adequacy
import Idealize.ShloMosaic.Init

noncomputable section

namespace Cert.Proof.Claims

open Idealize.ShloMosaic Idealize.SL.Sem Cert.Spec

/-- The reference runs and its arguments end unchanged. -/
theorem frame_ReferenceIdeal : Cert.frame_ReferenceIdeal := fun m ρ _ =>
  (θ_run Cert.ReferenceIdeal.defs _ _).mono (fun _ h c => (h c).2.2.2) (Cert.ReferenceIdeal.RefRead.ref_run m ρ)

/-- The kernel program at the ideal values runs and its arguments end unchanged. -/
theorem frame_KernelIdeal : Cert.frame_KernelIdeal := fun m ρ _ => Cert.KernelIdeal.Hand.frame m ρ

/-- At the ideal values, from memories agreeing on the arguments, both programs run and end with equal results — the
    tail's terms of the arguments' nearest-point arrays — and unchanged arguments. -/
theorem algebraic (hfin0 : Cert.KernelIdeal.Hand.Final0) (hfin1 : Cert.KernelIdeal.Hand.Final1) :
    Cert.algebraic_KernelIdeal_ReferenceIdeal := by
  intro m ρ m' ρ' _ hagree
  refine ⟨_, _, _, Cert.KernelIdeal.Hand.kernel_run m hfin0 hfin1 ρ, ?_⟩
  refine (θ_run Cert.ReferenceIdeal.defs _ _).mono (fun _ h c => ?_) (Cert.ReferenceIdeal.RefRead.ref_run m' ρ')
  obtain ⟨h1, h2, h3, h4⟩ := h c
  have e0 := (hagree c).1
  have e1 := (hagree c).2.1
  have e2 := (hagree c).2.2
  exact ⟨h1.trans (by rw [e0, e1, e2]), h2.trans (by rw [e0, e1]), h3.trans (by rw [e2]), h4⟩

end Cert.Proof.Claims

end
-- ==== Proof.lean ====
/-
  Two point clouds per batch entry, 8192 points each in three coordinates. Both programs compute, for every point of one
  cloud, the least squared distance |x|² + |y|² − 2·⟨x, y⟩ to a point of the other cloud, in both directions, average
  each direction over the points and over the batch, add the two averages, and add the mean of a one-element third
  argument. The kernel program finds the minima block by block: for a block of 1024 query points it walks the eight
  blocks of 1024 key points, keeping a running minimum that starts at +infinity and is written out after the last key
  block; the reference takes each minimum over all 8192 key points at once. Over the extended reals the two agree because
  a minimum may be taken in any grouping and + and · are commutative; no distributive law and no finiteness of the
  inputs is used. The averaging tail is the same sequence of operations in both programs and is carried as one function.

  The frames of the two kernel programs (every execution ends, nothing faults, the arguments end as launched) are proved
  call by call: the body is run once per branch assignment of a grid point (first key block, a middle one, the last), the
  running minimum's buffer is carried from point to point through the call's invariant, and the two calls and the host
  operations around them are composed with the contents of every buffer named at each boundary. The reference has no
  kernel; its frame is its run with the results dropped. Nothing was rewritten when the kernel was idealized, so the
  idealization claim is trivial.
-/
import proofs.«108210_j36782099923388_2_alg».proof.Defs
import proofs.«108210_j36782099923388_2_alg».proof.Proof.Gen.Kernel
import proofs.«108210_j36782099923388_2_alg».proof.Proof.Gen.KernelIdeal
import proofs.«108210_j36782099923388_2_alg».proof.Proof.Gen.ReferenceIdeal
import proofs.«108210_j36782099923388_2_alg».proof.Proof.Gen.Pre_finite_inputs
import proofs.«108210_j36782099923388_2_alg».proof.Proof.KB.Main
import proofs.«108210_j36782099923388_2_alg».proof.Proof.KI.Value0
import proofs.«108210_j36782099923388_2_alg».proof.Proof.KI.Value1
import proofs.«108210_j36782099923388_2_alg».proof.Proof.Claims
import Idealize.ShloMosaic.Adequacy
import Idealize.ShloMosaic.Init

noncomputable section

namespace Cert.Proof

open Idealize.ShloMosaic Idealize.SL.Sem

/-- The word-level kernel program's frame. -/
theorem frame_Kernel : Cert.frame_Kernel := fun m ρ _ => Cert.Kernel.Hand.frame m ρ

theorem claim : Cert.Claim := ⟨Cert.Kernel.Gen.facts, Cert.KernelIdeal.Gen.facts, Cert.ReferenceIdeal.Gen.facts, Cert.Pre_finite_inputs.Gen.facts,
  frame_Kernel, Claims.frame_KernelIdeal, Claims.frame_ReferenceIdeal, trivial,
  Claims.algebraic Cert.KernelIdeal.Hand.final0 Cert.KernelIdeal.Hand.final1⟩

end Cert.Proof

end
